-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S1600000 : Shape := ⟨1, ![1600000]⟩
abbrev S100000 : Shape := ⟨1, ![100000]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x16 : S_.BroadcastsInDim S6x16 (![] : Fin 0 → Fin S6x16.rank)
  reducesTo_S6x16_S_d0_1 : S6x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg10 : FVec F S64x64 .f32) (main_arg11 : FVec F S64 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg7 : FVec F S32 .f32) (main_arg8 : FVec F S32x64 .f32) (main_arg9 : FVec F S64 .f32) (main_arg10 : FVec F S64x64 .f32) (main_arg11 : FVec F S64 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg8
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_v33

def fn {F : FTy → Type} [FloatOps F] (main_arg0 : FVec F S100000x6 .f32) (main_arg1 : IVec S1600000 32) (main_arg2 : IVec S1600000 32) (main_arg3 : IVec S100000 32) (main_arg4 : FVec F S6x16 .f32) (main_arg5 : FVec F S16 .f32) (main_arg6 : FVec F S16x32 .f32) (main_arg7 : FVec F S32 .f32) (main_arg8 : FVec F S32x64 .f32) (main_arg9 : FVec F S64 .f32) (main_arg10 : FVec F S64x64 .f32) (main_arg11 : FVec F S64 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x16 .f32 := Host.absf main_arg4
  let main_cst_0 : FVec F S_ .f32 := constant S_ .f32 0x7F800000#32
  let main_v5 : FVec F S6x16 .f32 := broadcastInDim S6x16 ![] bcast_S_S6x16 main_cst_0
  let main_v6 : IVec S6x16 1 := cmpf .olt main_v4 main_v5
  let main_c_1 : IVec S_ 1 := constantI S_ 1 1#1
  let main_v7 : IVec S_ 1 := (fun x v => Host.reduce IntOp.andi x v reducesTo_S6x16_S_d0_1 h_S_) main_v6 main_c_1
  let main_v8 : IVec S_ 1 := andi main_v3 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg6
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg7 main_arg8 main_arg9 main_arg10 main_arg11 main_v13 main_v16
-- ==== Kernel.lean ====
abbrev S100000x6 : Shape := ⟨2, ![100000, 6]⟩
abbrev S1600000 : Shape := ⟨1, ![1600000]⟩
abbrev S100000 : Shape := ⟨1, ![100000]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S100000x1 : Shape := ⟨2, ![100000, 1]⟩
abbrev S1600000x6 : Shape := ⟨2, ![1600000, 6]⟩
abbrev S1x16 : Shape := ⟨2, ![1, 16]⟩
abbrev S100000x16 : Shape := ⟨2, ![100000, 16]⟩
abbrev S5000x6 : Shape := ⟨2, ![5000, 6]⟩
abbrev S5000x1 : Shape := ⟨2, ![5000, 1]⟩
abbrev S5000x16 : Shape := ⟨2, ![5000, 16]⟩
abbrev S1600000x16 : Shape := ⟨2, ![1600000, 16]⟩
abbrev S1x32 : Shape := ⟨2, ![1, 32]⟩
abbrev S100000x32 : Shape := ⟨2, ![100000, 32]⟩
abbrev S5000x32 : Shape := ⟨2, ![5000, 32]⟩
abbrev S1600000x32 : Shape := ⟨2, ![1600000, 32]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S64x1 : Shape := ⟨2, ![64, 1]⟩

abbrev nBuf : Space → Nat
  | .hbm => 101
  | .vmem => 40
  | .smem => 0
  | _ => 0

abbrev bufTy : (tb : Table) → Fin (tcTables nBuf tb) → BufTy
  | .hbm, ⟨0, _⟩ => ⟨S100000x6, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S6x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x6, .f32⟩
  | .hbm, ⟨34, _⟩ => ⟨S_, .f32⟩
  | .hbm, ⟨35, _⟩ => ⟨S100000x6, .f32⟩
  | .hbm, ⟨36, _⟩ => ⟨S1600000x1, .i32⟩
  | .hbm, ⟨37, _⟩ => ⟨S100000x6, .f32⟩
  | .hbm, ⟨38, _⟩ => ⟨S1x16, .f32⟩
  | .hbm, ⟨39, _⟩ => ⟨S100000x16, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x16, .f32⟩
  | .hbm, ⟨49, _⟩ => ⟨S_, .f32⟩
  | .hbm, ⟨50, _⟩ => ⟨S100000x16, .f32⟩
  | .hbm, ⟨51, _⟩ => ⟨S1600000x1, .i32⟩
  | .hbm, ⟨52, _⟩ => ⟨S100000x16, .f32⟩
  | .hbm, ⟨53, _⟩ => ⟨S1x32, .f32⟩
  | .hbm, ⟨54, _⟩ => ⟨S100000x32, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x32, .f32⟩
  | .hbm, ⟨64, _⟩ => ⟨S_, .f32⟩
  | .hbm, ⟨65, _⟩ => ⟨S100000x32, .f32⟩
  | .hbm, ⟨66, _⟩ => ⟨S1600000x1, .i32⟩
  | .hbm, ⟨67, _⟩ => ⟨S100000x32, .f32⟩
  | .hbm, ⟨68, _⟩ => ⟨S1x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S_, .f32⟩
  | .hbm, ⟨86, _⟩ => ⟨S64x64, .f32⟩
  | .hbm, ⟨87, _⟩ => ⟨S100000x1, .i32⟩
  | .hbm, ⟨88, _⟩ => ⟨S64x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S64, .f32⟩
  | .hbm, ⟨93, _⟩ => ⟨S100000x1, .i32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x64, .f32⟩
  | .hbm, ⟨100, _⟩ => ⟨S64x64, .f32⟩
  | .local _ .vmem, ⟨0, _⟩ => ⟨S5000x6, .f32⟩
  | .local _ .vmem, ⟨1, _⟩ => ⟨S5000x6, .f32⟩
  | .local _ .vmem, ⟨2, _⟩ => ⟨S5000x6, .f32⟩
  | .local _ .vmem, ⟨3, _⟩ => ⟨S5000x6, .f32⟩
  | .local _ .vmem, ⟨4, _⟩ => ⟨S5000x1, .f32⟩
  | .local _ .vmem, ⟨5, _⟩ => ⟨S5000x1, .f32⟩
  | .local _ .vmem, ⟨6, _⟩ => ⟨S6x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S5000x1, .f32⟩
  | .local _ .vmem, ⟨15, _⟩ => ⟨S5000x1, .f32⟩
  | .local _ .vmem, ⟨16, _⟩ => ⟨S16x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x1, .f32⟩
  | .local _ .vmem, ⟨25, _⟩ => ⟨S5000x1, .f32⟩
  | .local _ .vmem, ⟨26, _⟩ => ⟨S32x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x1, .f32⟩
  | .local _ .vmem, ⟨35, _⟩ => ⟨S5000x1, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_cst_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_17 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x6 : S_.BroadcastsInDim S100000x6 (![] : Fin 0 → Fin S100000x6.rank)
  shapeCasts_S16_S1x16 : S16.ShapeCasts S1x16
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x6 : S5000x1.Broadcasts S5000x6
  bitsLt_bf16_f32 : FTy.bits .bf16 < FTy.bits .f32
  inb_S6x16_S6x16_0_0 : ∀ a, (![0, 0] : Fin 2 → Nat) a + S6x16.size a ≤ S6x16.size a
  h_S6x16 : 0 < S6x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S32_S1x32 : S32.ShapeCasts S1x32
  shapeCasts_S5000x16_S5000x16 : S5000x16.ShapeCasts S5000x16
  broadcasts_S5000x1_S5000x16 : S5000x1.Broadcasts S5000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S64_S1x64 : S64.ShapeCasts S1x64
  shapeCasts_S5000x32_S5000x32 : S5000x32.ShapeCasts S5000x32
  broadcasts_S5000x1_S5000x32 : S5000x1.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S5000x6_S6x16_S5000x16_1_0_0_1_n_n_wf : DotDims.WF S5000x6 S6x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S100000x6.size a
  hwx0_1 : ∀ i : grid0.Coords, EltTy.bits .f32 = 32 ∨ (Rect.block (s := S100000x6) S5000x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x16.size a ≤ S6x16.size a
  hwx0_3 : ∀ i : grid0.Coords, EltTy.bits .f32 = 32 ∨ (Rect.block (s := S6x16) S6x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S16x32.size a
  hwx1_3 : ∀ i : grid1.Coords, EltTy.bits .f32 = 32 ∨ (Rect.block (s := S16x32) S16x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S5000x6_S6x16_S5000x16_1_0_0_1_n_n : DotDims S5000x6 S6x16 S5000x16 where
  lhsContracting := [1]
  rhsContracting := [0]
  lhsNonContracting := [0]
  rhsNonContracting := [1]
  lhsBatch := []
  rhsBatch := []
  wf := dot_S5000x6_S6x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v18) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S6x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x6 : Shape := ⟨2, ![100000, 6]⟩
abbrev S1600000 : Shape := ⟨1, ![1600000]⟩
abbrev S100000 : Shape := ⟨1, ![100000]⟩
abbrev S6x16 : Shape := ⟨2, ![6, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S1600000x1 : Shape := ⟨2, ![1600000, 1]⟩
abbrev S1600000x6 : Shape := ⟨2, ![1600000, 6]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S100000x6, .f32⟩
  | 1 => ⟨S1600000, .i32⟩
  | 2 => ⟨S1600000, .i32⟩
  | 3 => ⟨S100000, .i32⟩
  | 4 => ⟨S6x16, .f32⟩
  | 5 => ⟨S16, .f32⟩
  | 6 => ⟨S16x32, .f32⟩
  | 7 => ⟨S32, .f32⟩
  | 8 => ⟨S32x64, .f32⟩
  | 9 => ⟨S64, .f32⟩
  | 10 => ⟨S64x64, .f32⟩
  | 11 => ⟨S64, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x6, .f32⟩
  | 27 => ⟨S_, .f32⟩
  | 28 => ⟨S100000x6, .f32⟩
  | 29 => ⟨S1600000x1, .i32⟩
  | 30 => ⟨S100000x6, .f32⟩
  | 31 => ⟨S100000x6, .f32⟩
  | 32 => ⟨S100000x1, .f32⟩
  | 33 => ⟨S_, .f32⟩
  | 34 => ⟨S100000x1, .f32⟩
  | 35 => ⟨S100000x1, .f32⟩
  | 36 => ⟨S100000x6, .f32⟩
  | 37 => ⟨S100000x6, .f32⟩
  | 38 => ⟨S100000x16, .f32⟩
  | 39 => ⟨S1x16, .f32⟩
  | 40 => ⟨S100000x16, .f32⟩
  | 41 => ⟨S100000x16, .f32⟩
  | 42 => ⟨S_, .f32⟩
  | 43 => ⟨S100000x16, .f32⟩
  | 44 => ⟨S100000x16, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x16, .f32⟩
  | 54 => ⟨S_, .f32⟩
  | 55 => ⟨S100000x16, .f32⟩
  | 56 => ⟨S1600000x1, .i32⟩
  | 57 => ⟨S100000x16, .f32⟩
  | 58 => ⟨S100000x16, .f32⟩
  | 59 => ⟨S100000x1, .f32⟩
  | 60 => ⟨S_, .f32⟩
  | 61 => ⟨S100000x1, .f32⟩
  | 62 => ⟨S100000x1, .f32⟩
  | 63 => ⟨S100000x16, .f32⟩
  | 64 => ⟨S100000x16, .f32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000x32, .f32⟩
  | 81 => ⟨S_, .f32⟩
  | 82 => ⟨S100000x32, .f32⟩
  | 83 => ⟨S1600000x1, .i32⟩
  | 84 => ⟨S100000x32, .f32⟩
  | 85 => ⟨S100000x32, .f32⟩
  | 86 => ⟨S100000x1, .f32⟩
  | 87 => ⟨S_, .f32⟩
  | 88 => ⟨S100000x1, .f32⟩
  | 89 => ⟨S100000x1, .f32⟩
  | 90 => ⟨S100000x32, .f32⟩
  | 91 => ⟨S100000x32, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S100000x1, .f32⟩
  | 114 => ⟨S_, .f32⟩
  | 115 => ⟨S100000x1, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .f32⟩
  | 127 => ⟨S64x64, .f32⟩
  | _ => ⟨S100000x6, .f32⟩

abbrev hbmTy0_1 (i : Nat) : BufTy := match i % 128 with
  | 0 => ⟨S100000x1, .i32⟩
  | 1 => ⟨S64x64, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x64, .f32⟩
  | 13 => ⟨S64x64, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_cst : Ref sig .tc := ⟨.hbm, 69, rfl⟩
abbrev main_call1_v0 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_call3_cst : Ref sig .tc := ⟨.hbm, 123, rfl⟩
abbrev main_call3_v0 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x6_0_1 : S100000x1.BroadcastsInDim S100000x6 (![0, 1] : Fin 2 → Fin S100000x6.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x16_S100000x16_1_0_0_1_n_n_wf : DotDims.WF S100000x6 S6x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x16_S100000x16_1_0_0_1_n_n : DotDims S100000x6 S6x16 S100000x16 where
  lhsContracting := [1]
  rhsContracting := [0]
  lhsNonContracting := [0]
  rhsNonContracting := [1]
  lhsBatch := []
  rhsBatch := []
  wf := dot_S100000x6_S6x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel's run with every buffer named.

  @main is five stretches of host operations around four launches of the fused layer kernel.  The contents of the
  TensorCore's buffers at each boundary are a fold from the launch memory: a host stretch applies its operations, a
  launch replaces its arrays by what the pipeline's write-backs leave.  Every weakly fair execution ends with every
  unscoped buffer at the last boundary's contents `W9`; in particular the result buffer.
-/
import proofs.«112067_j24404004176133_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run read at the result buffer and at the twelve arguments. -/
theorem run_result : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
    ⟨h c _ (mem_uc main_v68 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c)⟩) (run_all m ρ)

end Cert.KernelIdeal.Gen

end
-- ==== Proof.Fold.lean ====
/-
  The fold of the buffers' contents through @main, read where the four launches and the result need it.

  A host stretch applied to any contents `Y` leaves, in the buffers it writes, the operations' terms of what it reads in
  `Y`, and leaves every other buffer as in `Y`.  A launch replaces its output array and keeps everything else.  So the
  index arrays, the weights and the biases reach every later stretch as launched; the reciprocal degree is computed
  once, before the first launch, and reaches all four; each launch's output is the next layer's features.
-/
import proofs.«112067_j24404004176133_2_alg».proof.Proof.Gen.KernelIdeal.Frame
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable {F : FTy → Type} [FloatOps F]

/-! ## The host stretches' terms -/

/-- The reciprocal degree as a one-column matrix: one over (the number of edges into the node, a sum of ones onto
    zero at the edges' destinations, plus one). -/
def invDeg (a2 : (⟨S1600000, .i32⟩ : BufTy).Contents (Elt F)) : (⟨S100000x1, .f32⟩ : BufTy).Contents (Elt F) :=
  shapeCast S100000x1
    (Host.divf (broadcastInDim S100000 ![] bcast_S_S100000 (constant S_ .f32 0x3F800000#32))
      (addf
        (Host.scatterAdd scatter_S100000_S1600000x1_S1600000_n_0_0_1
          (broadcastInDim S100000 ![] bcast_S_S100000 (constant S_ .f32 0x00000000#32))
          (broadcastInDim S1600000x1 ![0] bcast_S1600000_S1600000x1_0 a2)
          (broadcastInDim S1600000 ![] bcast_S_S1600000 (constant S_ .f32 0x3F800000#32)))
        (broadcastInDim S100000 ![] bcast_S_S100000 (constant S_ .f32 0x3F800000#32))))
    shapeCasts_S100000_S100000x1
/-- The neighbour sums entering layer 0: the features gathered along the edges' sources (a negative source index wraps
    by the node count) and summed onto zero at the edges' destinations. -/
def neigh0 (h : (⟨S100000x6, .f32⟩ : BufTy).Contents (Elt F)) (a1 a2 : (⟨S1600000, .i32⟩ : BufTy).Contents (Elt F)) : (⟨S100000x6, .f32⟩ : BufTy).Contents (Elt F) :=
  Host.scatterAdd scatter_S100000x6_S1600000x1_S1600000x6_1_0_0_1
    (broadcastInDim S100000x6 ![] bcast_S_S100000x6 (constant S_ .f32 0x00000000#32))
    (broadcastInDim S1600000x1 ![0] bcast_S1600000_S1600000x1_0 a2)
    (Host.gather gather_S100000x6_S1600000x1_S1600000x6_1_0_n_n_0_1_16 h
      (broadcastInDim S1600000x1 ![0] bcast_S1600000_S1600000x1_0
        (select (cmpi .slt a1 (broadcastInDim S1600000 ![] bcast_S_S1600000 (constantI S_ 32 0#32)))
          (addi a1 (broadcastInDim S1600000 ![] bcast_S_S1600000 (constantI S_ 32 100000#32))) a1)))
/-- Layer 0's bias as a one-row matrix. -/
def row0 (b : (⟨S16, .f32⟩ : BufTy).Contents (Elt F)) : (⟨S1x16, .f32⟩ : BufTy).Contents (Elt F) :=
  shapeCast S1x16 b shapeCasts_S16_S1x16
/-- The neighbour sums entering layer 1: the features gathered along the edges' sources (a negative source index wraps
    by the node count) and summed onto zero at the edges' destinations. -/
def neigh1 (h : (⟨S100000x16, .f32⟩ : BufTy).Contents (Elt F)) (a1 a2 : (⟨S1600000, .i32⟩ : BufTy).Contents (Elt F)) : (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (broadcastInDim S1600000x1 ![0] bcast_S1600000_S1600000x1_0 a2)
    (Host.gather gather_S100000x16_S1600000x1_S1600000x16_1_0_n_n_0_1_116 h
      (broadcastInDim S1600000x1 ![0] bcast_S1600000_S1600000x1_0
        (select (cmpi .slt a1 (broadcastInDim S1600000 ![] bcast_S_S1600000 (constantI S_ 32 0#32)))
          (addi a1 (broadcastInDim S1600000 ![] bcast_S_S1600000 (constantI S_ 32 100000#32))) a1)))
/-- Layer 1's bias as a one-row matrix. -/
def row1 (b : (⟨S32, .f32⟩ : BufTy).Contents (Elt F)) : (⟨S1x32, .f32⟩ : BufTy).Contents (Elt F) :=
  shapeCast S1x32 b shapeCasts_S32_S1x32
/-- The neighbour sums entering layer 2: the features gathered along the edges' sources (a negative source index wraps
    by the node count) and summed onto zero at the edges' destinations. -/
def neigh2 (h : (⟨S100000x32, .f32⟩ : BufTy).Contents (Elt F)) (a1 a2 : (⟨S1600000, .i32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 a2)
    (Host.gather gather_S100000x32_S1600000x1_S1600000x32_1_0_n_n_0_1_132 h
      (broadcastInDim S1600000x1 ![0] bcast_S1600000_S1600000x1_0
        (select (cmpi .slt a1 (broadcastInDim S1600000 ![] bcast_S_S1600000 (constantI S_ 32 0#32)))
          (addi a1 (broadcastInDim S1600000 ![] bcast_S_S1600000 (constantI S_ 32 100000#32))) a1)))
/-- Layer 2's bias as a one-row matrix. -/
def row2 (b : (⟨S64, .f32⟩ : BufTy).Contents (Elt F)) : (⟨S1x64, .f32⟩ : BufTy).Contents (Elt F) :=
  shapeCast S1x64 b shapeCasts_S64_S1x64
/-- The neighbour sums entering layer 3: the features gathered along the edges' sources (a negative source index wraps
    by the node count) and summed onto zero at the edges' destinations. -/
def neigh3 (h : (⟨S100000x64, .f32⟩ : BufTy).Contents (Elt F)) (a1 a2 : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 a2)
    (Host.gather gather_S100000x64_S1600000x1_S1600000x64_1_0_n_n_0_1_164 h
      (broadcastInDim S1600000x1 ![0] bcast_S1600000_S1600000x1_0
        (select (cmpi .slt a1 (broadcastInDim S1600000 ![] bcast_S_S1600000 (constantI S_ 32 0#32)))
          (addi a1 (broadcastInDim S1600000 ![] bcast_S_S1600000 (constantI S_ 32 100000#32))) a1)))
/-- Layer 3's bias as a one-row matrix. -/
def row3 (b : (⟨S64, .f32⟩ : BufTy).Contents (Elt F)) : (⟨S1x64, .f32⟩ : BufTy).Contents (Elt F) :=
  shapeCast S1x64 b shapeCasts_S64_S1x64

/-- The per-graph mean of the last layer's features: their sums over each graph's nodes, divided by the graph's node
    count clamped below at one. -/
def graphMean (h : (⟨S100000x64, .f32⟩ : BufTy).Contents (Elt F)) (a3 : (⟨S100000, .i32⟩ : BufTy).Contents (Elt F)) : (⟨S64x64, .f32⟩ : BufTy).Contents (Elt F) :=
  Host.divf
    (Host.scatterAdd scatter_S64x64_S100000x1_S100000x64_1_0_0_1
      (broadcastInDim S64x64 ![] bcast_S_S64x64 (constant S_ .f32 0x00000000#32))
      (broadcastInDim S100000x1 ![0] bcast_S100000_S100000x1_0 a3) h)
    (broadcastInDim S64x64 ![0, 1] bcast_S64x1_S64x64_0_1
      (broadcastInDim S64x1 ![0] bcast_S64_S64x1_0
        (maximumf
          (Host.scatterAdd scatter_S64_S100000x1_S100000_n_0_0_1
            (broadcastInDim S64 ![] bcast_S_S64 (constant S_ .f32 0x00000000#32))
            (broadcastInDim S100000x1 ![0] bcast_S100000_S100000x1_0 a3)
            (broadcastInDim S100000 ![] bcast_S_S100000 (constant S_ .f32 0x3F800000#32)))
          (broadcastInDim S64 ![] bcast_S_S64 (constant S_ .f32 0x3F800000#32)))))

/-! ## What each stretch writes, over any contents -/

set_option maxHeartbeats 4000000 in
theorem ops0_inv (Y : Valuation τ sig (Elt F)) :
    StableHlo.after hostOps0 Y (Proc.devRef .tc main_v8) = invDeg (Y (Proc.devRef .tc main_arg2)) := by
  after_results; rfl
set_option maxHeartbeats 4000000 in
theorem ops0_neigh (Y : Valuation τ sig (Elt F)) :
    StableHlo.after hostOps0 Y (Proc.devRef .tc main_v18)
      = neigh0 (Y (Proc.devRef .tc main_arg0)) (Y (Proc.devRef .tc main_arg1)) (Y (Proc.devRef .tc main_arg2)) := by
  after_results; rfl
set_option maxHeartbeats 4000000 in
theorem ops0_row (Y : Valuation τ sig (Elt F)) :
    StableHlo.after hostOps0 Y (Proc.devRef .tc main_v19) = row0 (Y (Proc.devRef .tc main_arg5)) := by
  after_results; rfl
set_option maxHeartbeats 4000000 in
theorem ops1_neigh (Y : Valuation τ sig (Elt F)) :
    StableHlo.after hostOps1 Y (Proc.devRef .tc main_v30)
      = neigh1 (Y (Proc.devRef .tc main_v20)) (Y (Proc.devRef .tc main_arg1)) (Y (Proc.devRef .tc main_arg2)) := by
  after_results; rfl
set_option maxHeartbeats 4000000 in
theorem ops1_row (Y : Valuation τ sig (Elt F)) :
    StableHlo.after hostOps1 Y (Proc.devRef .tc main_v31) = row1 (Y (Proc.devRef .tc main_arg7)) := by
  after_results; rfl
set_option maxHeartbeats 4000000 in
theorem ops2_neigh (Y : Valuation τ sig (Elt F)) :
    StableHlo.after hostOps2 Y (Proc.devRef .tc main_v42)
      = neigh2 (Y (Proc.devRef .tc main_v32)) (Y (Proc.devRef .tc main_arg1)) (Y (Proc.devRef .tc main_arg2)) := by
  after_results; rfl
set_option maxHeartbeats 4000000 in
theorem ops2_row (Y : Valuation τ sig (Elt F)) :
    StableHlo.after hostOps2 Y (Proc.devRef .tc main_v43) = row2 (Y (Proc.devRef .tc main_arg9)) := by
  after_results; rfl
set_option maxHeartbeats 4000000 in
theorem ops3_neigh (Y : Valuation τ sig (Elt F)) :
    StableHlo.after hostOps3 Y (Proc.devRef .tc main_v54)
      = neigh3 (Y (Proc.devRef .tc main_v44)) (Y (Proc.devRef .tc main_arg1)) (Y (Proc.devRef .tc main_arg2)) := by
  after_results; rfl
set_option maxHeartbeats 4000000 in
theorem ops3_row (Y : Valuation τ sig (Elt F)) :
    StableHlo.after hostOps3 Y (Proc.devRef .tc main_v55) = row3 (Y (Proc.devRef .tc main_arg11)) := by
  after_results; rfl
set_option maxHeartbeats 4000000 in
theorem ops4_mean (Y : Valuation τ sig (Elt F)) :
    StableHlo.after hostOps4 Y (Proc.devRef .tc main_v68)
      = graphMean (Y (Proc.devRef .tc main_v56)) (Y (Proc.devRef .tc main_arg3)) := by
  after_results; rfl

/-! ## What each stretch leaves alone -/

theorem pass0_main_arg0 (Y : Valuation τ sig (Elt F)) :
    StableHlo.after hostOps0 Y (Proc.devRef .tc main_arg0) = Y (Proc.devRef .tc main_arg0) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg4 (Y : Valuation τ sig (Elt F)) :
    StableHlo.after hostOps0 Y (Proc.devRef .tc main_arg4) = Y (Proc.devRef .tc main_arg4) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg1 (Y : Valuation τ sig (Elt F)) :
    StableHlo.after hostOps0 Y (Proc.devRef .tc main_arg1) = Y (Proc.devRef .tc main_arg1) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg2 (Y : Valuation τ sig (Elt F)) :
    StableHlo.after hostOps0 Y (Proc.devRef .tc main_arg2) = Y (Proc.devRef .tc main_arg2) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg3 (Y : Valuation τ sig (Elt F)) :
    StableHlo.after hostOps0 Y (Proc.devRef .tc main_arg3) = Y (Proc.devRef .tc main_arg3) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg6 (Y : Valuation τ sig (Elt F)) :
    StableHlo.after hostOps0 Y (Proc.devRef .tc main_arg6) = Y (Proc.devRef .tc main_arg6) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg7 (Y : Valuation τ sig (Elt F)) :
    StableHlo.after hostOps0 Y (Proc.devRef .tc main_arg7) = Y (Proc.devRef .tc main_arg7) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg8 (Y : Valuation τ sig (Elt F)) :
    StableHlo.after hostOps0 Y (Proc.devRef .tc main_arg8) = Y (Proc.devRef .tc main_arg8) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg9 (Y : Valuation τ sig (Elt F)) :
    StableHlo.after hostOps0 Y (Proc.devRef .tc main_arg9) = Y (Proc.devRef .tc main_arg9) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg10 (Y : Valuation τ sig (Elt F)) :
    StableHlo.after hostOps0 Y (Proc.devRef .tc main_arg10) = Y (Proc.devRef .tc main_arg10) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass0_main_arg11 (Y : Valuation τ sig (Elt F)) :
    StableHlo.after hostOps0 Y (Proc.devRef .tc main_arg11) = Y (Proc.devRef .tc main_arg11) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_v20 (Y : Valuation τ sig (Elt F)) :
    StableHlo.after hostOps1 Y (Proc.devRef .tc main_v20) = Y (Proc.devRef .tc main_v20) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_v8 (Y : Valuation τ sig (Elt F)) :
    StableHlo.after hostOps1 Y (Proc.devRef .tc main_v8) = Y (Proc.devRef .tc main_v8) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg6 (Y : Valuation τ sig (Elt F)) :
    StableHlo.after hostOps1 Y (Proc.devRef .tc main_arg6) = Y (Proc.devRef .tc main_arg6) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg1 (Y : Valuation τ sig (Elt F)) :
    StableHlo.after hostOps1 Y (Proc.devRef .tc main_arg1) = Y (Proc.devRef .tc main_arg1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg2 (Y : Valuation τ sig (Elt F)) :
    StableHlo.after hostOps1 Y (Proc.devRef .tc main_arg2) = Y (Proc.devRef .tc main_arg2) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg3 (Y : Valuation τ sig (Elt F)) :
    StableHlo.after hostOps1 Y (Proc.devRef .tc main_arg3) = Y (Proc.devRef .tc main_arg3) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg8 (Y : Valuation τ sig (Elt F)) :
    StableHlo.after hostOps1 Y (Proc.devRef .tc main_arg8) = Y (Proc.devRef .tc main_arg8) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg9 (Y : Valuation τ sig (Elt F)) :
    StableHlo.after hostOps1 Y (Proc.devRef .tc main_arg9) = Y (Proc.devRef .tc main_arg9) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg10 (Y : Valuation τ sig (Elt F)) :
    StableHlo.after hostOps1 Y (Proc.devRef .tc main_arg10) = Y (Proc.devRef .tc main_arg10) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass1_main_arg11 (Y : Valuation τ sig (Elt F)) :
    StableHlo.after hostOps1 Y (Proc.devRef .tc main_arg11) = Y (Proc.devRef .tc main_arg11) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_v32 (Y : Valuation τ sig (Elt F)) :
    StableHlo.after hostOps2 Y (Proc.devRef .tc main_v32) = Y (Proc.devRef .tc main_v32) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_v8 (Y : Valuation τ sig (Elt F)) :
    StableHlo.after hostOps2 Y (Proc.devRef .tc main_v8) = Y (Proc.devRef .tc main_v8) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_arg8 (Y : Valuation τ sig (Elt F)) :
    StableHlo.after hostOps2 Y (Proc.devRef .tc main_arg8) = Y (Proc.devRef .tc main_arg8) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_arg1 (Y : Valuation τ sig (Elt F)) :
    StableHlo.after hostOps2 Y (Proc.devRef .tc main_arg1) = Y (Proc.devRef .tc main_arg1) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_arg2 (Y : Valuation τ sig (Elt F)) :
    StableHlo.after hostOps2 Y (Proc.devRef .tc main_arg2) = Y (Proc.devRef .tc main_arg2) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_arg3 (Y : Valuation τ sig (Elt F)) :
    StableHlo.after hostOps2 Y (Proc.devRef .tc main_arg3) = Y (Proc.devRef .tc main_arg3) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_arg10 (Y : Valuation τ sig (Elt F)) :
    StableHlo.after hostOps2 Y (Proc.devRef .tc main_arg10) = Y (Proc.devRef .tc main_arg10) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass2_main_arg11 (Y : Valuation τ sig (Elt F)) :
    StableHlo.after hostOps2 Y (Proc.devRef .tc main_arg11) = Y (Proc.devRef .tc main_arg11) :=
  StableHlo.after_of_forall_not_mem _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass3_main_v44 (Y : Valuation τ sig (Elt F)) :
    StableHlo.after hostOps3 Y (Proc.devRef .tc main_v44) = Y (Proc.devRef .tc main_v44) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass3_main_v8 (Y : Valuation τ sig (Elt F)) :
    StableHlo.after hostOps3 Y (Proc.devRef .tc main_v8) = Y (Proc.devRef .tc main_v8) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass3_main_arg10 (Y : Valuation τ sig (Elt F)) :
    StableHlo.after hostOps3 Y (Proc.devRef .tc main_arg10) = Y (Proc.devRef .tc main_arg10) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pass3_main_arg3 (Y : Valuation τ sig (Elt F)) :
    StableHlo.after hostOps3 Y (Proc.devRef .tc main_arg3) = Y (Proc.devRef .tc main_arg3) :=
  StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Fold

end
-- ==== Proof.Boundary.lean ====
/-
  Every buffer a launch or the final stretch reads, as a term of the launch memory.

  Nothing writes the index arrays, the weights or the biases, so at every boundary they hold what was launched.  The
  reciprocal degree is written once, by the first stretch, from the destination indices; every launch reads it through
  an input window and leaves it as found.  Launch `k`'s neighbour sums are gathered and summed from the features the
  previous launch wrote (the node features themselves for the first).
-/
import proofs.«112067_j24404004176133_2_alg».proof.Proof.Fold

set_option maxRecDepth 16384

noncomputable section

namespace Cert.KernelIdeal.Gen

open Idealize.ShloMosaic Idealize.ShloMosaic.TcCoe Idealize.SL.Sem Idealize.ShloMosaic.StableHlo Cert.KernelIdeal.Fold

variable {F : FTy → Type} [FloatOps F]
variable (m : (ℓ : Loc nD τ sig) → Buf (Elt F) ℓ) (ρ : Dev nD → PrngReg) (c : Dev nD)

/-! ## The arrays nothing writes -/
theorem at1_arg1 : W1 m ρ c (Proc.devRef .tc main_arg1) = (m ((c : Thread nD τ).loc main_arg1)) := pass0_main_arg1 (W0 m ρ c)
theorem at2_arg1 : W2 m ρ c (Proc.devRef .tc main_arg1) = (m ((c : Thread nD τ).loc main_arg1)) := (W2_of_ne m ρ c main_arg1 (by decide)).trans (at1_arg1 m ρ c)
theorem at3_arg1 : W3 m ρ c (Proc.devRef .tc main_arg1) = (m ((c : Thread nD τ).loc main_arg1)) := (pass1_main_arg1 (W2 m ρ c)).trans (at2_arg1 m ρ c)
theorem at4_arg1 : W4 m ρ c (Proc.devRef .tc main_arg1) = (m ((c : Thread nD τ).loc main_arg1)) := (W4_of_ne m ρ c main_arg1 (by decide)).trans (at3_arg1 m ρ c)
theorem at5_arg1 : W5 m ρ c (Proc.devRef .tc main_arg1) = (m ((c : Thread nD τ).loc main_arg1)) := (pass2_main_arg1 (W4 m ρ c)).trans (at4_arg1 m ρ c)
theorem at6_arg1 : W6 m ρ c (Proc.devRef .tc main_arg1) = (m ((c : Thread nD τ).loc main_arg1)) := (W6_of_ne m ρ c main_arg1 (by decide)).trans (at5_arg1 m ρ c)
theorem at1_arg2 : W1 m ρ c (Proc.devRef .tc main_arg2) = (m ((c : Thread nD τ).loc main_arg2)) := pass0_main_arg2 (W0 m ρ c)
theorem at2_arg2 : W2 m ρ c (Proc.devRef .tc main_arg2) = (m ((c : Thread nD τ).loc main_arg2)) := (W2_of_ne m ρ c main_arg2 (by decide)).trans (at1_arg2 m ρ c)
theorem at3_arg2 : W3 m ρ c (Proc.devRef .tc main_arg2) = (m ((c : Thread nD τ).loc main_arg2)) := (pass1_main_arg2 (W2 m ρ c)).trans (at2_arg2 m ρ c)
theorem at4_arg2 : W4 m ρ c (Proc.devRef .tc main_arg2) = (m ((c : Thread nD τ).loc main_arg2)) := (W4_of_ne m ρ c main_arg2 (by decide)).trans (at3_arg2 m ρ c)
theorem at5_arg2 : W5 m ρ c (Proc.devRef .tc main_arg2) = (m ((c : Thread nD τ).loc main_arg2)) := (pass2_main_arg2 (W4 m ρ c)).trans (at4_arg2 m ρ c)
theorem at6_arg2 : W6 m ρ c (Proc.devRef .tc main_arg2) = (m ((c : Thread nD τ).loc main_arg2)) := (W6_of_ne m ρ c main_arg2 (by decide)).trans (at5_arg2 m ρ c)
theorem at1_arg3 : W1 m ρ c (Proc.devRef .tc main_arg3) = (m ((c : Thread nD τ).loc main_arg3)) := pass0_main_arg3 (W0 m ρ c)
theorem at2_arg3 : W2 m ρ c (Proc.devRef .tc main_arg3) = (m ((c : Thread nD τ).loc main_arg3)) := (W2_of_ne m ρ c main_arg3 (by decide)).trans (at1_arg3 m ρ c)
theorem at3_arg3 : W3 m ρ c (Proc.devRef .tc main_arg3) = (m ((c : Thread nD τ).loc main_arg3)) := (pass1_main_arg3 (W2 m ρ c)).trans (at2_arg3 m ρ c)
theorem at4_arg3 : W4 m ρ c (Proc.devRef .tc main_arg3) = (m ((c : Thread nD τ).loc main_arg3)) := (W4_of_ne m ρ c main_arg3 (by decide)).trans (at3_arg3 m ρ c)
theorem at5_arg3 : W5 m ρ c (Proc.devRef .tc main_arg3) = (m ((c : Thread nD τ).loc main_arg3)) := (pass2_main_arg3 (W4 m ρ c)).trans (at4_arg3 m ρ c)
theorem at6_arg3 : W6 m ρ c (Proc.devRef .tc main_arg3) = (m ((c : Thread nD τ).loc main_arg3)) := (W6_of_ne m ρ c main_arg3 (by decide)).trans (at5_arg3 m ρ c)
theorem at7_arg3 : W7 m ρ c (Proc.devRef .tc main_arg3) = (m ((c : Thread nD τ).loc main_arg3)) := (pass3_main_arg3 (W6 m ρ c)).trans (at6_arg3 m ρ c)
theorem at8_arg3 : W8 m ρ c (Proc.devRef .tc main_arg3) = (m ((c : Thread nD τ).loc main_arg3)) := (W8_of_ne m ρ c main_arg3 (by decide)).trans (at7_arg3 m ρ c)
theorem at1_arg6 : W1 m ρ c (Proc.devRef .tc main_arg6) = (m ((c : Thread nD τ).loc main_arg6)) := pass0_main_arg6 (W0 m ρ c)
theorem at2_arg6 : W2 m ρ c (Proc.devRef .tc main_arg6) = (m ((c : Thread nD τ).loc main_arg6)) := (W2_of_ne m ρ c main_arg6 (by decide)).trans (at1_arg6 m ρ c)
theorem at1_arg7 : W1 m ρ c (Proc.devRef .tc main_arg7) = (m ((c : Thread nD τ).loc main_arg7)) := pass0_main_arg7 (W0 m ρ c)
theorem at2_arg7 : W2 m ρ c (Proc.devRef .tc main_arg7) = (m ((c : Thread nD τ).loc main_arg7)) := (W2_of_ne m ρ c main_arg7 (by decide)).trans (at1_arg7 m ρ c)
theorem at1_arg8 : W1 m ρ c (Proc.devRef .tc main_arg8) = (m ((c : Thread nD τ).loc main_arg8)) := pass0_main_arg8 (W0 m ρ c)
theorem at2_arg8 : W2 m ρ c (Proc.devRef .tc main_arg8) = (m ((c : Thread nD τ).loc main_arg8)) := (W2_of_ne m ρ c main_arg8 (by decide)).trans (at1_arg8 m ρ c)
theorem at3_arg8 : W3 m ρ c (Proc.devRef .tc main_arg8) = (m ((c : Thread nD τ).loc main_arg8)) := (pass1_main_arg8 (W2 m ρ c)).trans (at2_arg8 m ρ c)
theorem at4_arg8 : W4 m ρ c (Proc.devRef .tc main_arg8) = (m ((c : Thread nD τ).loc main_arg8)) := (W4_of_ne m ρ c main_arg8 (by decide)).trans (at3_arg8 m ρ c)
theorem at1_arg9 : W1 m ρ c (Proc.devRef .tc main_arg9) = (m ((c : Thread nD τ).loc main_arg9)) := pass0_main_arg9 (W0 m ρ c)
theorem at2_arg9 : W2 m ρ c (Proc.devRef .tc main_arg9) = (m ((c : Thread nD τ).loc main_arg9)) := (W2_of_ne m ρ c main_arg9 (by decide)).trans (at1_arg9 m ρ c)
theorem at3_arg9 : W3 m ρ c (Proc.devRef .tc main_arg9) = (m ((c : Thread nD τ).loc main_arg9)) := (pass1_main_arg9 (W2 m ρ c)).trans (at2_arg9 m ρ c)
theorem at4_arg9 : W4 m ρ c (Proc.devRef .tc main_arg9) = (m ((c : Thread nD τ).loc main_arg9)) := (W4_of_ne m ρ c main_arg9 (by decide)).trans (at3_arg9 m ρ c)
theorem at1_arg10 : W1 m ρ c (Proc.devRef .tc main_arg10) = (m ((c : Thread nD τ).loc main_arg10)) := pass0_main_arg10 (W0 m ρ c)
theorem at2_arg10 : W2 m ρ c (Proc.devRef .tc main_arg10) = (m ((c : Thread nD τ).loc main_arg10)) := (W2_of_ne m ρ c main_arg10 (by decide)).trans (at1_arg10 m ρ c)
theorem at3_arg10 : W3 m ρ c (Proc.devRef .tc main_arg10) = (m ((c : Thread nD τ).loc main_arg10)) := (pass1_main_arg10 (W2 m ρ c)).trans (at2_arg10 m ρ c)
theorem at4_arg10 : W4 m ρ c (Proc.devRef .tc main_arg10) = (m ((c : Thread nD τ).loc main_arg10)) := (W4_of_ne m ρ c main_arg10 (by decide)).trans (at3_arg10 m ρ c)
theorem at5_arg10 : W5 m ρ c (Proc.devRef .tc main_arg10) = (m ((c : Thread nD τ).loc main_arg10)) := (pass2_main_arg10 (W4 m ρ c)).trans (at4_arg10 m ρ c)
theorem at6_arg10 : W6 m ρ c (Proc.devRef .tc main_arg10) = (m ((c : Thread nD τ).loc main_arg10)) := (W6_of_ne m ρ c main_arg10 (by decide)).trans (at5_arg10 m ρ c)
theorem at1_arg11 : W1 m ρ c (Proc.devRef .tc main_arg11) = (m ((c : Thread nD τ).loc main_arg11)) := pass0_main_arg11 (W0 m ρ c)
theorem at2_arg11 : W2 m ρ c (Proc.devRef .tc main_arg11) = (m ((c : Thread nD τ).loc main_arg11)) := (W2_of_ne m ρ c main_arg11 (by decide)).trans (at1_arg11 m ρ c)
theorem at3_arg11 : W3 m ρ c (Proc.devRef .tc main_arg11) = (m ((c : Thread nD τ).loc main_arg11)) := (pass1_main_arg11 (W2 m ρ c)).trans (at2_arg11 m ρ c)
theorem at4_arg11 : W4 m ρ c (Proc.devRef .tc main_arg11) = (m ((c : Thread nD τ).loc main_arg11)) := (W4_of_ne m ρ c main_arg11 (by decide)).trans (at3_arg11 m ρ c)
theorem at5_arg11 : W5 m ρ c (Proc.devRef .tc main_arg11) = (m ((c : Thread nD τ).loc main_arg11)) := (pass2_main_arg11 (W4 m ρ c)).trans (at4_arg11 m ρ c)
theorem at6_arg11 : W6 m ρ c (Proc.devRef .tc main_arg11) = (m ((c : Thread nD τ).loc main_arg11)) := (W6_of_ne m ρ c main_arg11 (by decide)).trans (at5_arg11 m ρ c)

/-! ## The reciprocal degree at every launch -/

theorem inv1 : W1 m ρ c (Proc.devRef .tc main_v8) = invDeg (m ((c : Thread nD τ).loc main_arg2)) := ops0_inv (W0 m ρ c)
theorem inv2 : W2 m ρ c (Proc.devRef .tc main_v8) = invDeg (m ((c : Thread nD τ).loc main_arg2)) :=
  ((W2_arr m ρ c 2).trans (((dat0 (V1 m ρ) c).arrAt_in 2 rfl _).trans (A_eq0 (V1 m ρ) c 2))).trans (inv1 m ρ c)
theorem inv3 : W3 m ρ c (Proc.devRef .tc main_v8) = invDeg (m ((c : Thread nD τ).loc main_arg2)) := (pass1_main_v8 (W2 m ρ c)).trans (inv2 m ρ c)
theorem inv4 : W4 m ρ c (Proc.devRef .tc main_v8) = invDeg (m ((c : Thread nD τ).loc main_arg2)) :=
  ((W4_arr m ρ c 2).trans (((dat1 (V3 m ρ) c).arrAt_in 2 rfl _).trans (A_eq1 (V3 m ρ) c 2))).trans (inv3 m ρ c)
theorem inv5 : W5 m ρ c (Proc.devRef .tc main_v8) = invDeg (m ((c : Thread nD τ).loc main_arg2)) := (pass2_main_v8 (W4 m ρ c)).trans (inv4 m ρ c)
theorem inv6 : W6 m ρ c (Proc.devRef .tc main_v8) = invDeg (m ((c : Thread nD τ).loc main_arg2)) :=
  ((W6_arr m ρ c 2).trans (((dat2 (V5 m ρ) c).arrAt_in 2 rfl _).trans (A_eq2 (V5 m ρ) c 2))).trans (inv5 m ρ c)
theorem inv7 : W7 m ρ c (Proc.devRef .tc main_v8) = invDeg (m ((c : Thread nD τ).loc main_arg2)) := (pass3_main_v8 (W6 m ρ c)).trans (inv6 m ρ c)

/-! ## What each launch finds in its other four windows -/

theorem in0_neigh : W1 m ρ c (Proc.devRef .tc main_v18) = neigh0 (m ((c : Thread nD τ).loc main_arg0)) (m ((c : Thread nD τ).loc main_arg1)) (m ((c : Thread nD τ).loc main_arg2)) := ops0_neigh (W0 m ρ c)
theorem in0_feat : W1 m ρ c (Proc.devRef .tc main_arg0) = (m ((c : Thread nD τ).loc main_arg0)) := pass0_main_arg0 (W0 m ρ c)
theorem in0_weight : W1 m ρ c (Proc.devRef .tc main_arg4) = (m ((c : Thread nD τ).loc main_arg4)) := pass0_main_arg4 (W0 m ρ c)
theorem in0_bias : W1 m ρ c (Proc.devRef .tc main_v19) = row0 (m ((c : Thread nD τ).loc main_arg5)) := ops0_row (W0 m ρ c)

theorem in1_neigh : W3 m ρ c (Proc.devRef .tc main_v30) = neigh1 (W2 m ρ c (Proc.devRef .tc main_v20)) (m ((c : Thread nD τ).loc main_arg1)) (m ((c : Thread nD τ).loc main_arg2)) := by
  rw [show W3 m ρ c (Proc.devRef .tc main_v30) = _ from ops1_neigh (W2 m ρ c), at2_arg1 m ρ c, at2_arg2 m ρ c]
theorem in1_feat : W3 m ρ c (Proc.devRef .tc main_v20) = W2 m ρ c (Proc.devRef .tc main_v20) := pass1_main_v20 (W2 m ρ c)
theorem in1_weight : W3 m ρ c (Proc.devRef .tc main_arg6) = (m ((c : Thread nD τ).loc main_arg6)) := (pass1_main_arg6 (W2 m ρ c)).trans (at2_arg6 m ρ c)
theorem in1_bias : W3 m ρ c (Proc.devRef .tc main_v31) = row1 (m ((c : Thread nD τ).loc main_arg7)) := by
  rw [show W3 m ρ c (Proc.devRef .tc main_v31) = _ from ops1_row (W2 m ρ c), at2_arg7 m ρ c]

theorem in2_neigh : W5 m ρ c (Proc.devRef .tc main_v42) = neigh2 (W4 m ρ c (Proc.devRef .tc main_v32)) (m ((c : Thread nD τ).loc main_arg1)) (m ((c : Thread nD τ).loc main_arg2)) := by
  rw [show W5 m ρ c (Proc.devRef .tc main_v42) = _ from ops2_neigh (W4 m ρ c), at4_arg1 m ρ c, at4_arg2 m ρ c]
theorem in2_feat : W5 m ρ c (Proc.devRef .tc main_v32) = W4 m ρ c (Proc.devRef .tc main_v32) := pass2_main_v32 (W4 m ρ c)
theorem in2_weight : W5 m ρ c (Proc.devRef .tc main_arg8) = (m ((c : Thread nD τ).loc main_arg8)) := (pass2_main_arg8 (W4 m ρ c)).trans (at4_arg8 m ρ c)
theorem in2_bias : W5 m ρ c (Proc.devRef .tc main_v43) = row2 (m ((c : Thread nD τ).loc main_arg9)) := by
  rw [show W5 m ρ c (Proc.devRef .tc main_v43) = _ from ops2_row (W4 m ρ c), at4_arg9 m ρ c]

theorem in3_neigh : W7 m ρ c (Proc.devRef .tc main_v54) = neigh3 (W6 m ρ c (Proc.devRef .tc main_v44)) (m ((c : Thread nD τ).loc main_arg1)) (m ((c : Thread nD τ).loc main_arg2)) := by
  rw [show W7 m ρ c (Proc.devRef .tc main_v54) = _ from ops3_neigh (W6 m ρ c), at6_arg1 m ρ c, at6_arg2 m ρ c]
theorem in3_feat : W7 m ρ c (Proc.devRef .tc main_v44) = W6 m ρ c (Proc.devRef .tc main_v44) := pass3_main_v44 (W6 m ρ c)
theorem in3_weight : W7 m ρ c (Proc.devRef .tc main_arg10) = (m ((c : Thread nD τ).loc main_arg10)) := (pass3_main_arg10 (W6 m ρ c)).trans (at6_arg10 m ρ c)
theorem in3_bias : W7 m ρ c (Proc.devRef .tc main_v55) = row3 (m ((c : Thread nD τ).loc main_arg11)) := by
  rw [show W7 m ρ c (Proc.devRef .tc main_v55) = _ from ops3_row (W6 m ρ c), at6_arg11 m ρ c]

/-! ## The result -/

theorem result_mean : W9 m ρ c (Proc.devRef .tc main_v68) = graphMean (W8 m ρ c (Proc.devRef .tc main_v56)) (m ((c : Thread nD τ).loc main_arg3)) := by
  rw [show W9 m ρ c (Proc.devRef .tc main_v68) = _ from ops4_mean (W8 m ρ c), at8_arg3 m ρ c]

end Cert.KernelIdeal.Gen

end
-- ==== Proof.LayerSpec.lean ====
/-
  One graph-convolution layer, entry by entry, in the two forms the programs compute it, and the law that joins them.

  For a node `p` and an output feature `q` a layer's pre-activation is
      ∑ₖ ((n(p,k) + h(p,k)) scaled by the node's degree) · W(k,q)  +  b(q),
  where `n` is the sum of the neighbours' features, `h` the node's own features, and the result is clamped below at
  `z`.  One program multiplies by a stored reciprocal `inv(p) = 1 / (deg(p) + 1)`; the other divides by `deg(p) + 1`.
  On the extended reals `a · (1 / D) = a / D` for every `D ≠ 0`, infinite `D` included (both sides are `a · D⁻¹`); at
  `D = 0` it fails (`0 · ⊤ = 0` against the convention `0 / 0 = ⊥`), so the law is used where `deg(p) + 1 ≠ 0`.  A degree
  is a count: a sum of ones onto zero, hence `≥ 0`, and `deg(p) + 1 ≥ 1`.
-/
import Idealize.ShloMosaic.PureOps.Ideal
import Idealize.ShloMosaic.Lib.ValueIdx

noncomputable section

namespace Cert.Sage

open Idealize.ShloMosaic Idealize.ShloMosaic.ValueIdx

/-- The word of `1.0` denotes the real one. -/
theorem ofBits_one : Ideal.ofBits .f32 0x3F800000#32 = 1 := by
  simp [Ideal.ofBits, Ideal.ieee, -EReal.coe_mul]; norm_num

/-- The word of `+0.0` denotes zero. -/
theorem ofBits_zero : Ideal.ofBits .f32 0x00000000#32 = 0 := by
  simp [Ideal.ofBits, Ideal.ieee]

/-- Entry `(p, q)` of a layer in the reciprocal form: rows of `n`, `h` and the one-column `inv` at `p`, the weight's
    column `q`, the one-row bias at `q`, clamped below at `z`. -/
def entryMul {R d e : ℕ} (n h : (⟨2, ![R, d]⟩ : Shape).Idx → EReal) (inv : (⟨2, ![R, 1]⟩ : Shape).Idx → EReal)
    (W : (⟨2, ![d, e]⟩ : Shape).Idx → EReal) (b : (⟨2, ![1, e]⟩ : Shape).Idx → EReal) (z : EReal) (p : Fin R) (q : Fin e) : EReal :=
  max ((∑ k : Fin d, ((n (ix2 p k) + h (ix2 p k)) * inv (ix2 p (0 : Fin 1))) * W (ix2 k q)) + b (ix2 (0 : Fin 1) q)) z

/-- Entry `(p, q)` of a layer in the quotient form: each summand divided by `deg(p) + one`. -/
def entryDiv {R d e : ℕ} (n h : (⟨2, ![R, d]⟩ : Shape).Idx → EReal) (deg : (⟨1, ![R]⟩ : Shape).Idx → EReal) (one : EReal)
    (W : (⟨2, ![d, e]⟩ : Shape).Idx → EReal) (b : (⟨1, ![e]⟩ : Shape).Idx → EReal) (z : EReal) (p : Fin R) (q : Fin e) : EReal :=
  max ((∑ k : Fin d, Ideal.div (n (ix2 p k) + h (ix2 p k)) (deg (ix1 p) + one) * W (ix2 k q)) + b (ix1 q)) z

/-- A whole layer in the reciprocal form, as one function of the index. -/
def layerMul {R d e : ℕ} (n h : (⟨2, ![R, d]⟩ : Shape).Idx → EReal) (inv : (⟨2, ![R, 1]⟩ : Shape).Idx → EReal)
    (W : (⟨2, ![d, e]⟩ : Shape).Idx → EReal) (b : (⟨2, ![1, e]⟩ : Shape).Idx → EReal) (z : EReal) :
    (⟨2, ![R, e]⟩ : Shape).Idx → EReal :=
  fun i => entryMul n h inv W b z ⟨(i 0).val, (i 0).isLt⟩ ⟨(i 1).val, (i 1).isLt⟩

/-- A whole layer in the quotient form. -/
def layerDiv {R d e : ℕ} (n h : (⟨2, ![R, d]⟩ : Shape).Idx → EReal) (deg : (⟨1, ![R]⟩ : Shape).Idx → EReal) (one : EReal)
    (W : (⟨2, ![d, e]⟩ : Shape).Idx → EReal) (b : (⟨1, ![e]⟩ : Shape).Idx → EReal) (z : EReal) :
    (⟨2, ![R, e]⟩ : Shape).Idx → EReal :=
  fun i => entryDiv n h deg one W b z ⟨(i 0).val, (i 0).isLt⟩ ⟨(i 1).val, (i 1).isLt⟩

/-- `a · (1 / D) = a / D` off `D = 0`: both are `a · D⁻¹`. -/
theorem mul_one_div (a D : EReal) (hD : D ≠ 0) : a * Ideal.div 1 D = Ideal.div a D := by
  unfold Ideal.div
  rw [if_neg hD, if_neg hD, one_mul]

/-- The two forms of an entry agree when the stored reciprocal is `one / (deg p + one)`, `one` is `1`, the divisor is
    not zero, and the one-row bias is the bias. -/
theorem entryMul_eq_entryDiv {R d e : ℕ} (n h : (⟨2, ![R, d]⟩ : Shape).Idx → EReal) (inv : (⟨2, ![R, 1]⟩ : Shape).Idx → EReal)
    (deg : (⟨1, ![R]⟩ : Shape).Idx → EReal) (one : EReal)
    (W : (⟨2, ![d, e]⟩ : Shape).Idx → EReal) (b2 : (⟨2, ![1, e]⟩ : Shape).Idx → EReal) (b1 : (⟨1, ![e]⟩ : Shape).Idx → EReal)
    (z : EReal) (p : Fin R) (q : Fin e)
    (hone : one = 1) (hinv : inv (ix2 p (0 : Fin 1)) = Ideal.div one (deg (ix1 p) + one))
    (hD : deg (ix1 p) + one ≠ 0) (hb : b2 (ix2 (0 : Fin 1) q) = b1 (ix1 q)) :
    entryMul n h inv W b2 z p q = entryDiv n h deg one W b1 z p q := by
  unfold entryMul entryDiv
  rw [hb, hinv]
  refine congrArg (fun s => max (s + b1 (ix1 q)) z) (Finset.sum_congr rfl fun k _ => ?_)
  have e1 : (n (ix2 p k) + h (ix2 p k)) * Ideal.div one (deg (ix1 p) + one)
      = Ideal.div (n (ix2 p k) + h (ix2 p k)) (deg (ix1 p) + one) := by
    have := mul_one_div (n (ix2 p k) + h (ix2 p k)) (deg (ix1 p) + one) hD
    rw [hone] at hD ⊢
    rw [hone] at this
    exact this
  rw [e1]

/-- An entry reads only row `p` of `n`, `h`, `inv`, column `q` of `W` and entry `q` of the bias: two families that agree
    there (a block read inside its array) give the same entry. -/
theorem entryMul_congr {R R' d e e' : ℕ}
    (n h : (⟨2, ![R, d]⟩ : Shape).Idx → EReal) (inv : (⟨2, ![R, 1]⟩ : Shape).Idx → EReal)
    (W : (⟨2, ![d, e]⟩ : Shape).Idx → EReal) (b : (⟨2, ![1, e]⟩ : Shape).Idx → EReal)
    (n' h' : (⟨2, ![R', d]⟩ : Shape).Idx → EReal) (inv' : (⟨2, ![R', 1]⟩ : Shape).Idx → EReal)
    (W' : (⟨2, ![d, e']⟩ : Shape).Idx → EReal) (b' : (⟨2, ![1, e']⟩ : Shape).Idx → EReal)
    (z : EReal) (p : Fin R) (p' : Fin R') (q : Fin e) (q' : Fin e')
    (hn : ∀ k : Fin d, n (ix2 p k) = n' (ix2 p' k)) (hh : ∀ k : Fin d, h (ix2 p k) = h' (ix2 p' k))
    (hi : inv (ix2 p (0 : Fin 1)) = inv' (ix2 p' (0 : Fin 1)))
    (hW : ∀ k : Fin d, W (ix2 k q) = W' (ix2 k q')) (hb : b (ix2 (0 : Fin 1) q) = b' (ix2 (0 : Fin 1) q')) :
    entryMul n h inv W b z p q = entryMul n' h' inv' W' b' z p' q' := by
  unfold entryMul
  rw [hb, hi]
  refine congrArg (fun s => max (s + b' (ix2 (0 : Fin 1) q')) z) (Finset.sum_congr rfl fun k _ => ?_)
  rw [hn k, hh k, hW k]

/-- A float scatter-add of non-negative updates onto a non-negative operand is non-negative at every index: the
    operand's entry plus a sum of updates. -/
theorem hostScatterAdd_nonneg {s si su : Shape} (dn : ScatterDims s si su) {w : Nat} (x : s.Idx → EReal) (idx : IVec si w)
    (upd : su.Idx → EReal) (hx : ∀ i, 0 ≤ x i) (hu : ∀ j, 0 ≤ upd j) (i : s.Idx) :
    0 ≤ Ideal.hostScatterAdd dn x idx upd i := by
  unfold Ideal.hostScatterAdd
  exact add_nonneg (hx i) (Finset.sum_nonneg fun j _ => hu j)

/-- The same for the host's scatter-add as the programs spell it. -/
theorem scatterAdd_nonneg {s si su : Shape} {φ : FTy} (dn : ScatterDims s si su) {w : Nat} (x : FVec Ideal s φ) (idx : IVec si w)
    (upd : FVec Ideal su φ) (hx : ∀ i, (0 : EReal) ≤ x i) (hu : ∀ j, (0 : EReal) ≤ upd j) (i : s.Idx) :
    (0 : EReal) ≤ Host.scatterAdd dn x idx upd i :=
  hostScatterAdd_nonneg dn x idx upd hx hu i

/-- A non-negative extended real plus one is not zero. -/
theorem add_one_ne_zero (x : EReal) (hx : 0 ≤ x) : x + 1 ≠ 0 :=
  ne_of_gt (lt_of_lt_of_le zero_lt_one (le_add_of_nonneg_left hx))

end Cert.Sage

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Region0.lean ====
/-
  Launch 0 of the fused layer kernel (6 input features, 16 output features), read as a value.

  At a grid point `t` the body sees rows `5000·t … 5000·t + 4999` of the neighbour sums, of the node features and of the
  one-column reciprocal degree, together with the whole weight matrix and the whole one-row bias, and stores
  `max ((((n + h) · inv) as a matrix) · W + b, 0)` over those rows.  Entry `(p, q)` of that block depends only on row `p` of
  the three row-blocked operands, so it is the layer's entry `(5000·t + p, q)` of the whole arrays; the twenty blocks
  tile the `100000` rows, and the output array ends as the layer's reciprocal form of the five arrays the launch found.
-/
import proofs.«112067_j24404004176133_2_alg».proof.Proof.Gen.KernelIdeal.Frame
import proofs.«112067_j24404004176133_2_alg».proof.Proof.LayerSpec
import proofs.«112067_j24404004176133_2_alg».proof.Proof.LibBroadcast
import proofs.«112067_j24404004176133_2_alg».proof.Proof.LibMatmulRead
import proofs.«112067_j24404004176133_2_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Idealize.ShloMosaic.Pipeline Cert.Sage

/-! ## The matrix product's dimension record: rows follow the output's rows, columns the output's columns -/

theorem lhs_row (i : S5000x16.Idx) (q : dot_S5000x6_S6x16_S5000x16_1_0_0_1_n_n.contr.Idx) :
    (dot_S5000x6_S6x16_S5000x16_1_0_0_1_n_n.lhsIdx i q 0).val = (i 0).val := by
  unfold DotDims.lhsIdx
  rw [dif_neg (show ¬(0 : Fin S5000x6.rank) ∈ dot_S5000x6_S6x16_S5000x16_1_0_0_1_n_n.lhsBatch by decide), dif_pos (show (0 : Fin S5000x6.rank) ∈ dot_S5000x6_S6x16_S5000x16_1_0_0_1_n_n.lhsNonContracting by decide)]
  rfl
theorem lhs_col (i : S5000x16.Idx) (q : dot_S5000x6_S6x16_S5000x16_1_0_0_1_n_n.contr.Idx) :
    (dot_S5000x6_S6x16_S5000x16_1_0_0_1_n_n.lhsIdx i q 1).val = (q ⟨0, by decide⟩).val :=
  dot_S5000x6_S6x16_S5000x16_1_0_0_1_n_n.lhsIdx_val_of_single rfl i q
theorem rhs_row (i : S5000x16.Idx) (q : dot_S5000x6_S6x16_S5000x16_1_0_0_1_n_n.contr.Idx) :
    (dot_S5000x6_S6x16_S5000x16_1_0_0_1_n_n.rhsIdx i q 0).val = (q ⟨0, by decide⟩).val :=
  dot_S5000x6_S6x16_S5000x16_1_0_0_1_n_n.rhsIdx_val_of_single rfl i q
theorem rhs_col (i : S5000x16.Idx) (q : dot_S5000x6_S6x16_S5000x16_1_0_0_1_n_n.contr.Idx) :
    (dot_S5000x6_S6x16_S5000x16_1_0_0_1_n_n.rhsIdx i q 1).val = (i 1).val := by
  unfold DotDims.rhsIdx
  rw [dif_neg (show ¬(1 : Fin S6x16.rank) ∈ dot_S5000x6_S6x16_S5000x16_1_0_0_1_n_n.rhsBatch by decide), dif_pos (show (1 : Fin S6x16.rank) ∈ dot_S5000x6_S6x16_S5000x16_1_0_0_1_n_n.rhsNonContracting by decide)]
  rfl

/-! ## The body's stored value at an entry -/

/-- Entry `(p, q)` of what the body stores is the layer's reciprocal-form entry of the five loaded blocks. -/
theorem pay_apply (x0 x1 : Vec Ideal S5000x6 .f32) (x2 : Vec Ideal S5000x1 .f32) (x3 : Vec Ideal S6x16 .f32)
    (x4 : Vec Ideal S1x16 .f32) (p : Fin 5000) (q : Fin 16) :
    k0_pay1 (F := Ideal) x0 x1 x2 x3 x4 (ix2 p q)
      = entryMul (R := 5000) (d := 6) (e := 16) x0 x1 x2 x3 x4 (Ideal.ofBits .f32 0x00000000#32) p q := by
  unfold k0_pay1 entryMul
  simp only [shapeCast_self, matmul]
  rw [maximumf_apply, addf_apply, broadcast_apply, Cert.RowsProduct.broadcastTo_1n_an_apply,
    Cert.Contract.matmul_zero_ix2 dot_S5000x6_S6x16_S5000x16_1_0_0_1_n_n none rfl rfl lhs_row lhs_col rhs_row rhs_col]
  refine congrArg (fun s => max (s + x4 (ix2 (0 : Fin 1) q)) _) (Finset.sum_congr rfl fun k _ => ?_)
  rw [truncf_apply, truncf_apply, mulf_apply, addf_apply, Cert.Layout.broadcastTo_a1_ab_apply]

/-! ## From blocks to the array -/

theorem zero_off : (![0, 0] : Fin 2 → Nat) = fun _ => 0 := funext fun a => by fin_cases a <;> rfl

/-- The printed index maps over the twenty grid points: the three row-blocked inputs move with the output's row
    block, the weight and the bias stay at block zero, and there is one column block. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem idx_onto : ∀ (q0 : Fin 20), ∃ t : Fin cfg0.N, win0_5.index t = ![q0.val, 0] :=
  (by decide +kernel : ∀ (q0 : Fin 20), ∃ t : Fin grid0.N, win0_5.index t = ![q0.val, 0])

variable (V : (c : Dev nD) → (b : Ref sig .tc) → Buf (Elt Ideal) ((c : Thread nD τ).loc b))

/-- The layer's reciprocal form of the five arrays as the launch finds them. -/
abbrev whole (c : Dev nD) : S100000x16.Idx → EReal :=
  layerMul (R := 100000) (d := 6) (e := 16) (V c main_v18) (V c main_arg0) (V c main_v8) (V c main_arg4) (V c main_v19)
    (Ideal.ofBits .f32 0x00000000#32)

/-- What point `t` writes back is block `t` of the layer's reciprocal form of the arrays. -/
theorem flushed_eq (c : Dev nD) (t : Fin cfg0.N) :
    (dat0 (F := Ideal) V c).flushed 5 t = ((cfg0.win 5).blk t).view.read (Elt Ideal) (whole V c) := by
  show (cfg0.win 5).cut (grid0.coords t) ((dat0 V c).after 5 t) = _
  rw [after0_5]
  unfold out0_5
  rw [View.canon_unit_zero zero_off]
  simp only [View.ld_unit_zero (S := S5000x6) zero_off, View.ld_unit_zero (S := S5000x1) zero_off,
    View.ld_unit_zero (S := S6x16) zero_off, View.ld_unit_zero (S := S1x16) zero_off]
  obtain ⟨e0, e1, e2, e3, e4, e5, e6, e7, e8, e9, e10, e11⟩ := idx_facts t
  funext j
  obtain ⟨p, q, rfl⟩ : ∃ (p : Fin 5000) (q : Fin 16), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = whole V c (((cfg0.win 5).blk t).view.emb (ix2 p q))
  rw [pay_apply]
  show _ = entryMul (R := 100000) (d := 6) (e := 16) (V c main_v18) (V c main_arg0) (V c main_v8) (V c main_arg4) (V c main_v19)
    (Ideal.ofBits .f32 0x00000000#32)
    ⟨((((cfg0.win 5).blk t).view.emb (ix2 p q)) 0).val, ((((cfg0.win 5).blk t).view.emb (ix2 p q)) 0).isLt⟩
    ⟨((((cfg0.win 5).blk t).view.emb (ix2 p q)) 1).val, ((((cfg0.win 5).blk t).view.emb (ix2 p q)) 1).isLt⟩
  have hrow : ((((cfg0.win 5).blk t).view.emb (ix2 p q)) 0).val = win0_5.index t (0 : Fin 2) * 5000 + 1 * p.val := rfl
  have hcol : ((((cfg0.win 5).blk t).view.emb (ix2 p q)) 1).val = win0_5.index t (1 : Fin 2) * 16 + 1 * q.val := rfl
  refine entryMul_congr _ _ _ _ _ _ _ _ _ _ _ p _ q _ (fun k => ?_) (fun k => ?_) ?_ (fun k => ?_) ?_
  · show V c main_v18 (((cfg0.win 0).blk t).view.emb (ix2 p k)) = V c main_v18 (ix2 _ k)
    refine congrArg (V c main_v18) (funext fun a => Fin.ext ?_)
    match a with
    | ⟨0, _⟩ => show win0_0.index t (0 : Fin 2) * 5000 + 1 * p.val = _; rw [e0]; exact hrow.symm
    | ⟨1, _⟩ => show win0_0.index t (1 : Fin 2) * 6 + 1 * k.val = k.val; omega
  · show V c main_arg0 (((cfg0.win 1).blk t).view.emb (ix2 p k)) = V c main_arg0 (ix2 _ k)
    refine congrArg (V c main_arg0) (funext fun a => Fin.ext ?_)
    match a with
    | ⟨0, _⟩ => show win0_1.index t (0 : Fin 2) * 5000 + 1 * p.val = _; rw [e2]; exact hrow.symm
    | ⟨1, _⟩ => show win0_1.index t (1 : Fin 2) * 6 + 1 * k.val = k.val; omega
  · show V c main_v8 (((cfg0.win 2).blk t).view.emb (ix2 p (0 : Fin 1))) = V c main_v8 (ix2 _ (0 : Fin 1))
    refine congrArg (V c main_v8) (funext fun a => Fin.ext ?_)
    match a with
    | ⟨0, _⟩ => show win0_2.index t (0 : Fin 2) * 5000 + 1 * p.val = _; rw [e4]; exact hrow.symm
    | ⟨1, _⟩ => show win0_2.index t (1 : Fin 2) * 1 + 1 * 0 = 0; omega
  · show V c main_arg4 (((cfg0.win 3).blk t).view.emb (ix2 k q)) = V c main_arg4 (ix2 k _)
    refine congrArg (V c main_arg4) (funext fun a => Fin.ext ?_)
    match a with
    | ⟨0, _⟩ => show win0_3.index t (0 : Fin 2) * 6 + 1 * k.val = k.val; omega
    | ⟨1, _⟩ => show win0_3.index t (1 : Fin 2) * 16 + 1 * q.val = _; rw [hcol]; omega
  · show V c main_v19 (((cfg0.win 4).blk t).view.emb (ix2 (0 : Fin 1) q)) = V c main_v19 (ix2 (0 : Fin 1) _)
    refine congrArg (V c main_v19) (funext fun a => Fin.ext ?_)
    match a with
    | ⟨0, _⟩ => show win0_4.index t (0 : Fin 2) * 1 + 1 * 0 = 0; omega
    | ⟨1, _⟩ => show win0_4.index t (1 : Fin 2) * 16 + 1 * q.val = _; rw [hcol]; omega

/-- An index of the array is in point `t`'s block iff each coordinate is in the block's range on its axis. -/
theorem mem_blk (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v20).slice (win0_5.rect t)).set ↔ _
  rw [View.set_slice_whole, Rect.mem_set_unit]
  exact Iff.rfl

/-- Row `r` lies in the block of the point whose row block is `r / 5000`: the twenty blocks tile the array. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 16 ≤ (i 1).val ∧ (i 1).val < win0_5.index t (1 : Fin 2) * 16 + 16; omega

/-- The output array after the launch: the layer's reciprocal form of the five arrays the launch found. -/
theorem final (c : Dev nD) : (dat0 (F := Ideal) V c).arrAt 5 cfg0.N = whole V c :=
  (dat0 (F := Ideal) V c).arrAt_eq_of_cover 5 (whole V c) (fun t _ => flushed_eq V c t) cover

end Cert.KernelIdeal.Layer0

end
-- ==== Proof.Region1.lean ====
/-
  Launch 1 of the fused layer kernel (16 input features, 32 output features), read as a value.

  At a grid point `t` the body sees rows `5000·t … 5000·t + 4999` of the neighbour sums, of the node features and of the
  one-column reciprocal degree, together with the whole weight matrix and the whole one-row bias, and stores
  `max ((((n + h) · inv) as a matrix) · W + b, 0)` over those rows.  Entry `(p, q)` of that block depends only on row `p` of
  the three row-blocked operands, so it is the layer's entry `(5000·t + p, q)` of the whole arrays; the twenty blocks
  tile the `100000` rows, and the output array ends as the layer's reciprocal form of the five arrays the launch found.
-/
import proofs.«112067_j24404004176133_2_alg».proof.Proof.Gen.KernelIdeal.Frame
import proofs.«112067_j24404004176133_2_alg».proof.Proof.LayerSpec
import proofs.«112067_j24404004176133_2_alg».proof.Proof.LibBroadcast
import proofs.«112067_j24404004176133_2_alg».proof.Proof.LibMatmulRead
import proofs.«112067_j24404004176133_2_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Idealize.ShloMosaic.Pipeline Cert.Sage

/-! ## The matrix product's dimension record: rows follow the output's rows, columns the output's columns -/

theorem lhs_row (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_col (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q
theorem rhs_row (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q
theorem rhs_col (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-! ## The body's stored value at an entry -/

/-- Entry `(p, q)` of what the body stores is the layer's reciprocal-form entry of the five loaded blocks. -/
theorem pay_apply (x0 x1 : Vec Ideal S5000x16 .f32) (x2 : Vec Ideal S5000x1 .f32) (x3 : Vec Ideal S16x32 .f32)
    (x4 : Vec Ideal S1x32 .f32) (p : Fin 5000) (q : Fin 32) :
    k1_pay1 (F := Ideal) x0 x1 x2 x3 x4 (ix2 p q)
      = entryMul (R := 5000) (d := 16) (e := 32) x0 x1 x2 x3 x4 (Ideal.ofBits .f32 0x00000000#32) p q := by
  unfold k1_pay1 entryMul
  simp only [shapeCast_self, matmul]
  rw [maximumf_apply, addf_apply, broadcast_apply, Cert.RowsProduct.broadcastTo_1n_an_apply,
    Cert.Contract.matmul_zero_ix2 dot_S5000x16_S16x32_S5000x32_1_0_0_1_n_n none rfl rfl lhs_row lhs_col rhs_row rhs_col]
  refine congrArg (fun s => max (s + x4 (ix2 (0 : Fin 1) q)) _) (Finset.sum_congr rfl fun k _ => ?_)
  rw [truncf_apply, truncf_apply, mulf_apply, addf_apply, Cert.Layout.broadcastTo_a1_ab_apply]

/-! ## From blocks to the array -/

theorem zero_off : (![0, 0] : Fin 2 → Nat) = fun _ => 0 := funext fun a => by fin_cases a <;> rfl

/-- The printed index maps over the twenty grid points: the three row-blocked inputs move with the output's row
    block, the weight and the bias stay at block zero, and there is one column block. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every row block is some point's. -/
theorem idx_onto : ∀ (q0 : Fin 20), ∃ t : Fin cfg1.N, win1_5.index t = ![q0.val, 0] :=
  (by decide +kernel : ∀ (q0 : Fin 20), ∃ t : Fin grid1.N, win1_5.index t = ![q0.val, 0])

variable (V : (c : Dev nD) → (b : Ref sig .tc) → Buf (Elt Ideal) ((c : Thread nD τ).loc b))

/-- The layer's reciprocal form of the five arrays as the launch finds them. -/
abbrev whole (c : Dev nD) : S100000x32.Idx → EReal :=
  layerMul (R := 100000) (d := 16) (e := 32) (V c main_v30) (V c main_v20) (V c main_v8) (V c main_arg6) (V c main_v31)
    (Ideal.ofBits .f32 0x00000000#32)

/-- What point `t` writes back is block `t` of the layer's reciprocal form of the arrays. -/
theorem flushed_eq (c : Dev nD) (t : Fin cfg1.N) :
    (dat1 (F := Ideal) V c).flushed 5 t = ((cfg1.win 5).blk t).view.read (Elt Ideal) (whole V c) := by
  show (cfg1.win 5).cut (grid1.coords t) ((dat1 V c).after 5 t) = _
  rw [after1_5]
  unfold out1_5
  rw [View.canon_unit_zero zero_off]
  simp only [View.ld_unit_zero (S := S5000x16) zero_off, View.ld_unit_zero (S := S5000x1) zero_off,
    View.ld_unit_zero (S := S16x32) zero_off, View.ld_unit_zero (S := S1x32) zero_off]
  obtain ⟨e0, e1, e2, e3, e4, e5, e6, e7, e8, e9, e10, e11⟩ := idx_facts t
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = whole V c (((cfg1.win 5).blk t).view.emb (ix2 p q))
  rw [pay_apply]
  show _ = entryMul (R := 100000) (d := 16) (e := 32) (V c main_v30) (V c main_v20) (V c main_v8) (V c main_arg6) (V c main_v31)
    (Ideal.ofBits .f32 0x00000000#32)
    ⟨((((cfg1.win 5).blk t).view.emb (ix2 p q)) 0).val, ((((cfg1.win 5).blk t).view.emb (ix2 p q)) 0).isLt⟩
    ⟨((((cfg1.win 5).blk t).view.emb (ix2 p q)) 1).val, ((((cfg1.win 5).blk t).view.emb (ix2 p q)) 1).isLt⟩
  have hrow : ((((cfg1.win 5).blk t).view.emb (ix2 p q)) 0).val = win1_5.index t (0 : Fin 2) * 5000 + 1 * p.val := rfl
  have hcol : ((((cfg1.win 5).blk t).view.emb (ix2 p q)) 1).val = win1_5.index t (1 : Fin 2) * 32 + 1 * q.val := rfl
  refine entryMul_congr _ _ _ _ _ _ _ _ _ _ _ p _ q _ (fun k => ?_) (fun k => ?_) ?_ (fun k => ?_) ?_
  · show V c main_v30 (((cfg1.win 0).blk t).view.emb (ix2 p k)) = V c main_v30 (ix2 _ k)
    refine congrArg (V c main_v30) (funext fun a => Fin.ext ?_)
    match a with
    | ⟨0, _⟩ => show win1_0.index t (0 : Fin 2) * 5000 + 1 * p.val = _; rw [e0]; exact hrow.symm
    | ⟨1, _⟩ => show win1_0.index t (1 : Fin 2) * 16 + 1 * k.val = k.val; omega
  · show V c main_v20 (((cfg1.win 1).blk t).view.emb (ix2 p k)) = V c main_v20 (ix2 _ k)
    refine congrArg (V c main_v20) (funext fun a => Fin.ext ?_)
    match a with
    | ⟨0, _⟩ => show win1_1.index t (0 : Fin 2) * 5000 + 1 * p.val = _; rw [e2]; exact hrow.symm
    | ⟨1, _⟩ => show win1_1.index t (1 : Fin 2) * 16 + 1 * k.val = k.val; omega
  · show V c main_v8 (((cfg1.win 2).blk t).view.emb (ix2 p (0 : Fin 1))) = V c main_v8 (ix2 _ (0 : Fin 1))
    refine congrArg (V c main_v8) (funext fun a => Fin.ext ?_)
    match a with
    | ⟨0, _⟩ => show win1_2.index t (0 : Fin 2) * 5000 + 1 * p.val = _; rw [e4]; exact hrow.symm
    | ⟨1, _⟩ => show win1_2.index t (1 : Fin 2) * 1 + 1 * 0 = 0; omega
  · show V c main_arg6 (((cfg1.win 3).blk t).view.emb (ix2 k q)) = V c main_arg6 (ix2 k _)
    refine congrArg (V c main_arg6) (funext fun a => Fin.ext ?_)
    match a with
    | ⟨0, _⟩ => show win1_3.index t (0 : Fin 2) * 16 + 1 * k.val = k.val; omega
    | ⟨1, _⟩ => show win1_3.index t (1 : Fin 2) * 32 + 1 * q.val = _; rw [hcol]; omega
  · show V c main_v31 (((cfg1.win 4).blk t).view.emb (ix2 (0 : Fin 1) q)) = V c main_v31 (ix2 (0 : Fin 1) _)
    refine congrArg (V c main_v31) (funext fun a => Fin.ext ?_)
    match a with
    | ⟨0, _⟩ => show win1_4.index t (0 : Fin 2) * 1 + 1 * 0 = 0; omega
    | ⟨1, _⟩ => show win1_4.index t (1 : Fin 2) * 32 + 1 * q.val = _; rw [hcol]; omega

/-- An index of the array is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v32).slice (win1_5.rect t)).set ↔ _
  rw [View.set_slice_whole, Rect.mem_set_unit]
  exact Iff.rfl

/-- Row `r` lies in the block of the point whose row block is `r / 5000`: the twenty blocks tile the array. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- The output array after the launch: the layer's reciprocal form of the five arrays the launch found. -/
theorem final (c : Dev nD) : (dat1 (F := Ideal) V c).arrAt 5 cfg1.N = whole V c :=
  (dat1 (F := Ideal) V c).arrAt_eq_of_cover 5 (whole V c) (fun t _ => flushed_eq V c t) cover

end Cert.KernelIdeal.Layer1

end
-- ==== Proof.Region2.lean ====
/-
  Launch 2 of the fused layer kernel (32 input features, 64 output features), read as a value.

  At a grid point `t` the body sees rows `5000·t … 5000·t + 4999` of the neighbour sums, of the node features and of the
  one-column reciprocal degree, together with the whole weight matrix and the whole one-row bias, and stores
  `max ((((n + h) · inv) as a matrix) · W + b, 0)` over those rows.  Entry `(p, q)` of that block depends only on row `p` of
  the three row-blocked operands, so it is the layer's entry `(5000·t + p, q)` of the whole arrays; the twenty blocks
  tile the `100000` rows, and the output array ends as the layer's reciprocal form of the five arrays the launch found.
-/
import proofs.«112067_j24404004176133_2_alg».proof.Proof.Gen.KernelIdeal.Frame
import proofs.«112067_j24404004176133_2_alg».proof.Proof.LayerSpec
import proofs.«112067_j24404004176133_2_alg».proof.Proof.LibBroadcast
import proofs.«112067_j24404004176133_2_alg».proof.Proof.LibMatmulRead
import proofs.«112067_j24404004176133_2_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Idealize.ShloMosaic.Pipeline Cert.Sage

/-! ## The matrix product's dimension record: rows follow the output's rows, columns the output's columns -/

theorem lhs_row (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_col (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhs_row (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhs_col (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-! ## The body's stored value at an entry -/

/-- Entry `(p, q)` of what the body stores is the layer's reciprocal-form entry of the five loaded blocks. -/
theorem pay_apply (x0 x1 : Vec Ideal S5000x32 .f32) (x2 : Vec Ideal S5000x1 .f32) (x3 : Vec Ideal S32x64 .f32)
    (x4 : Vec Ideal S1x64 .f32) (p : Fin 5000) (q : Fin 64) :
    k2_pay1 (F := Ideal) x0 x1 x2 x3 x4 (ix2 p q)
      = entryMul (R := 5000) (d := 32) (e := 64) x0 x1 x2 x3 x4 (Ideal.ofBits .f32 0x00000000#32) p q := by
  unfold k2_pay1 entryMul
  simp only [shapeCast_self, matmul]
  rw [maximumf_apply, addf_apply, broadcast_apply, Cert.RowsProduct.broadcastTo_1n_an_apply,
    Cert.Contract.matmul_zero_ix2 dot_S5000x32_S32x64_S5000x64_1_0_0_1_n_n none rfl rfl lhs_row lhs_col rhs_row rhs_col]
  refine congrArg (fun s => max (s + x4 (ix2 (0 : Fin 1) q)) _) (Finset.sum_congr rfl fun k _ => ?_)
  rw [truncf_apply, truncf_apply, mulf_apply, addf_apply, Cert.Layout.broadcastTo_a1_ab_apply]

/-! ## From blocks to the array -/

theorem zero_off : (![0, 0] : Fin 2 → Nat) = fun _ => 0 := funext fun a => by fin_cases a <;> rfl

/-- The printed index maps over the twenty grid points: the three row-blocked inputs move with the output's row
    block, the weight and the bias stay at block zero, and there is one column block. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19 ∧ win2_5.index t (1 : Fin 2) = 0 :=
  (by decide +kernel : ∀ t : Fin grid2.N, _)

/-- Every row block is some point's. -/
theorem idx_onto : ∀ (q0 : Fin 20), ∃ t : Fin cfg2.N, win2_5.index t = ![q0.val, 0] :=
  (by decide +kernel : ∀ (q0 : Fin 20), ∃ t : Fin grid2.N, win2_5.index t = ![q0.val, 0])

variable (V : (c : Dev nD) → (b : Ref sig .tc) → Buf (Elt Ideal) ((c : Thread nD τ).loc b))

/-- The layer's reciprocal form of the five arrays as the launch finds them. -/
abbrev whole (c : Dev nD) : S100000x64.Idx → EReal :=
  layerMul (R := 100000) (d := 32) (e := 64) (V c main_v42) (V c main_v32) (V c main_v8) (V c main_arg8) (V c main_v43)
    (Ideal.ofBits .f32 0x00000000#32)

/-- What point `t` writes back is block `t` of the layer's reciprocal form of the arrays. -/
theorem flushed_eq (c : Dev nD) (t : Fin cfg2.N) :
    (dat2 (F := Ideal) V c).flushed 5 t = ((cfg2.win 5).blk t).view.read (Elt Ideal) (whole V c) := by
  show (cfg2.win 5).cut (grid2.coords t) ((dat2 V c).after 5 t) = _
  rw [after2_5]
  unfold out2_5
  rw [View.canon_unit_zero zero_off]
  simp only [View.ld_unit_zero (S := S5000x32) zero_off, View.ld_unit_zero (S := S5000x1) zero_off,
    View.ld_unit_zero (S := S32x64) zero_off, View.ld_unit_zero (S := S1x64) zero_off]
  obtain ⟨e0, e1, e2, e3, e4, e5, e6, e7, e8, e9, e10, e11⟩ := idx_facts t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = whole V c (((cfg2.win 5).blk t).view.emb (ix2 p q))
  rw [pay_apply]
  show _ = entryMul (R := 100000) (d := 32) (e := 64) (V c main_v42) (V c main_v32) (V c main_v8) (V c main_arg8) (V c main_v43)
    (Ideal.ofBits .f32 0x00000000#32)
    ⟨((((cfg2.win 5).blk t).view.emb (ix2 p q)) 0).val, ((((cfg2.win 5).blk t).view.emb (ix2 p q)) 0).isLt⟩
    ⟨((((cfg2.win 5).blk t).view.emb (ix2 p q)) 1).val, ((((cfg2.win 5).blk t).view.emb (ix2 p q)) 1).isLt⟩
  have hrow : ((((cfg2.win 5).blk t).view.emb (ix2 p q)) 0).val = win2_5.index t (0 : Fin 2) * 5000 + 1 * p.val := rfl
  have hcol : ((((cfg2.win 5).blk t).view.emb (ix2 p q)) 1).val = win2_5.index t (1 : Fin 2) * 64 + 1 * q.val := rfl
  refine entryMul_congr _ _ _ _ _ _ _ _ _ _ _ p _ q _ (fun k => ?_) (fun k => ?_) ?_ (fun k => ?_) ?_
  · show V c main_v42 (((cfg2.win 0).blk t).view.emb (ix2 p k)) = V c main_v42 (ix2 _ k)
    refine congrArg (V c main_v42) (funext fun a => Fin.ext ?_)
    match a with
    | ⟨0, _⟩ => show win2_0.index t (0 : Fin 2) * 5000 + 1 * p.val = _; rw [e0]; exact hrow.symm
    | ⟨1, _⟩ => show win2_0.index t (1 : Fin 2) * 32 + 1 * k.val = k.val; omega
  · show V c main_v32 (((cfg2.win 1).blk t).view.emb (ix2 p k)) = V c main_v32 (ix2 _ k)
    refine congrArg (V c main_v32) (funext fun a => Fin.ext ?_)
    match a with
    | ⟨0, _⟩ => show win2_1.index t (0 : Fin 2) * 5000 + 1 * p.val = _; rw [e2]; exact hrow.symm
    | ⟨1, _⟩ => show win2_1.index t (1 : Fin 2) * 32 + 1 * k.val = k.val; omega
  · show V c main_v8 (((cfg2.win 2).blk t).view.emb (ix2 p (0 : Fin 1))) = V c main_v8 (ix2 _ (0 : Fin 1))
    refine congrArg (V c main_v8) (funext fun a => Fin.ext ?_)
    match a with
    | ⟨0, _⟩ => show win2_2.index t (0 : Fin 2) * 5000 + 1 * p.val = _; rw [e4]; exact hrow.symm
    | ⟨1, _⟩ => show win2_2.index t (1 : Fin 2) * 1 + 1 * 0 = 0; omega
  · show V c main_arg8 (((cfg2.win 3).blk t).view.emb (ix2 k q)) = V c main_arg8 (ix2 k _)
    refine congrArg (V c main_arg8) (funext fun a => Fin.ext ?_)
    match a with
    | ⟨0, _⟩ => show win2_3.index t (0 : Fin 2) * 32 + 1 * k.val = k.val; omega
    | ⟨1, _⟩ => show win2_3.index t (1 : Fin 2) * 64 + 1 * q.val = _; rw [hcol]; omega
  · show V c main_v43 (((cfg2.win 4).blk t).view.emb (ix2 (0 : Fin 1) q)) = V c main_v43 (ix2 (0 : Fin 1) _)
    refine congrArg (V c main_v43) (funext fun a => Fin.ext ?_)
    match a with
    | ⟨0, _⟩ => show win2_4.index t (0 : Fin 2) * 1 + 1 * 0 = 0; omega
    | ⟨1, _⟩ => show win2_4.index t (1 : Fin 2) * 64 + 1 * q.val = _; rw [hcol]; omega

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v44).slice (win2_5.rect t)).set ↔ _
  rw [View.set_slice_whole, Rect.mem_set_unit]
  exact Iff.rfl

/-- Row `r` lies in the block of the point whose row block is `r / 5000`: the twenty blocks tile the array. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The output array after the launch: the layer's reciprocal form of the five arrays the launch found. -/
theorem final (c : Dev nD) : (dat2 (F := Ideal) V c).arrAt 5 cfg2.N = whole V c :=
  (dat2 (F := Ideal) V c).arrAt_eq_of_cover 5 (whole V c) (fun t _ => flushed_eq V c t) cover

end Cert.KernelIdeal.Layer2

end
-- ==== Proof.Region3.lean ====
/-
  Launch 3 of the fused layer kernel (64 input features, 64 output features), read as a value.

  At a grid point `t` the body sees rows `5000·t … 5000·t + 4999` of the neighbour sums, of the node features and of the
  one-column reciprocal degree, together with the whole weight matrix and the whole one-row bias, and stores
  `max ((((n + h) · inv) as a matrix) · W + b, 0)` over those rows.  Entry `(p, q)` of that block depends only on row `p` of
  the three row-blocked operands, so it is the layer's entry `(5000·t + p, q)` of the whole arrays; the twenty blocks
  tile the `100000` rows, and the output array ends as the layer's reciprocal form of the five arrays the launch found.
-/
import proofs.«112067_j24404004176133_2_alg».proof.Proof.Gen.KernelIdeal.Frame
import proofs.«112067_j24404004176133_2_alg».proof.Proof.LayerSpec
import proofs.«112067_j24404004176133_2_alg».proof.Proof.LibBroadcast
import proofs.«112067_j24404004176133_2_alg».proof.Proof.LibMatmulRead
import proofs.«112067_j24404004176133_2_alg».proof.Proof.LibRowsProduct
import Idealize.ShloMosaic.Lib.Pipeline.Value
import Idealize.ShloMosaic.Lib.ValueIdx
import Idealize.ShloMosaic.PureOps.Ideal.Laws

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx Idealize.ShloMosaic.Pipeline Cert.Sage

/-! ## The matrix product's dimension record: rows follow the output's rows, columns the output's columns -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's stored value at an entry -/

/-- Entry `(p, q)` of what the body stores is the layer's reciprocal-form entry of the five loaded blocks. -/
theorem pay_apply (x0 x1 : Vec Ideal S5000x64 .f32) (x2 : Vec Ideal S5000x1 .f32) (x3 : Vec Ideal S64x64 .f32)
    (x4 : Vec Ideal S1x64 .f32) (p : Fin 5000) (q : Fin 64) :
    k3_pay1 (F := Ideal) x0 x1 x2 x3 x4 (ix2 p q)
      = entryMul (R := 5000) (d := 64) (e := 64) x0 x1 x2 x3 x4 (Ideal.ofBits .f32 0x00000000#32) p q := by
  unfold k3_pay1 entryMul
  simp only [shapeCast_self, matmul]
  rw [maximumf_apply, addf_apply, broadcast_apply, Cert.RowsProduct.broadcastTo_1n_an_apply,
    Cert.Contract.matmul_zero_ix2 dot_S5000x64_S64x64_S5000x64_1_0_0_1_n_n none rfl rfl lhs_row lhs_col rhs_row rhs_col]
  refine congrArg (fun s => max (s + x4 (ix2 (0 : Fin 1) q)) _) (Finset.sum_congr rfl fun k _ => ?_)
  rw [truncf_apply, truncf_apply, mulf_apply, addf_apply, Cert.Layout.broadcastTo_a1_ab_apply]

/-! ## From blocks to the array -/

theorem zero_off : (![0, 0] : Fin 2 → Nat) = fun _ => 0 := funext fun a => by fin_cases a <;> rfl

/-- The printed index maps over the twenty grid points: the three row-blocked inputs move with the output's row
    block, the weight and the bias stay at block zero, and there is one column block. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 19 ∧ win3_5.index t (1 : Fin 2) = 0 :=
  (by decide +kernel : ∀ t : Fin grid3.N, _)

/-- Every row block is some point's. -/
theorem idx_onto : ∀ (q0 : Fin 20), ∃ t : Fin cfg3.N, win3_5.index t = ![q0.val, 0] :=
  (by decide +kernel : ∀ (q0 : Fin 20), ∃ t : Fin grid3.N, win3_5.index t = ![q0.val, 0])

variable (V : (c : Dev nD) → (b : Ref sig .tc) → Buf (Elt Ideal) ((c : Thread nD τ).loc b))

/-- The layer's reciprocal form of the five arrays as the launch finds them. -/
abbrev whole (c : Dev nD) : S100000x64.Idx → EReal :=
  layerMul (R := 100000) (d := 64) (e := 64) (V c main_v54) (V c main_v44) (V c main_v8) (V c main_arg10) (V c main_v55)
    (Ideal.ofBits .f32 0x00000000#32)

/-- What point `t` writes back is block `t` of the layer's reciprocal form of the arrays. -/
theorem flushed_eq (c : Dev nD) (t : Fin cfg3.N) :
    (dat3 (F := Ideal) V c).flushed 5 t = ((cfg3.win 5).blk t).view.read (Elt Ideal) (whole V c) := by
  show (cfg3.win 5).cut (grid3.coords t) ((dat3 V c).after 5 t) = _
  rw [after3_5]
  unfold out3_5
  rw [View.canon_unit_zero zero_off]
  simp only [View.ld_unit_zero (S := S5000x64) zero_off, View.ld_unit_zero (S := S5000x1) zero_off,
    View.ld_unit_zero (S := S64x64) zero_off, View.ld_unit_zero (S := S1x64) zero_off]
  obtain ⟨e0, e1, e2, e3, e4, e5, e6, e7, e8, e9, e10, e11⟩ := idx_facts t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = whole V c (((cfg3.win 5).blk t).view.emb (ix2 p q))
  rw [pay_apply]
  show _ = entryMul (R := 100000) (d := 64) (e := 64) (V c main_v54) (V c main_v44) (V c main_v8) (V c main_arg10) (V c main_v55)
    (Ideal.ofBits .f32 0x00000000#32)
    ⟨((((cfg3.win 5).blk t).view.emb (ix2 p q)) 0).val, ((((cfg3.win 5).blk t).view.emb (ix2 p q)) 0).isLt⟩
    ⟨((((cfg3.win 5).blk t).view.emb (ix2 p q)) 1).val, ((((cfg3.win 5).blk t).view.emb (ix2 p q)) 1).isLt⟩
  have hrow : ((((cfg3.win 5).blk t).view.emb (ix2 p q)) 0).val = win3_5.index t (0 : Fin 2) * 5000 + 1 * p.val := rfl
  have hcol : ((((cfg3.win 5).blk t).view.emb (ix2 p q)) 1).val = win3_5.index t (1 : Fin 2) * 64 + 1 * q.val := rfl
  refine entryMul_congr _ _ _ _ _ _ _ _ _ _ _ p _ q _ (fun k => ?_) (fun k => ?_) ?_ (fun k => ?_) ?_
  · show V c main_v54 (((cfg3.win 0).blk t).view.emb (ix2 p k)) = V c main_v54 (ix2 _ k)
    refine congrArg (V c main_v54) (funext fun a => Fin.ext ?_)
    match a with
    | ⟨0, _⟩ => show win3_0.index t (0 : Fin 2) * 5000 + 1 * p.val = _; rw [e0]; exact hrow.symm
    | ⟨1, _⟩ => show win3_0.index t (1 : Fin 2) * 64 + 1 * k.val = k.val; omega
  · show V c main_v44 (((cfg3.win 1).blk t).view.emb (ix2 p k)) = V c main_v44 (ix2 _ k)
    refine congrArg (V c main_v44) (funext fun a => Fin.ext ?_)
    match a with
    | ⟨0, _⟩ => show win3_1.index t (0 : Fin 2) * 5000 + 1 * p.val = _; rw [e2]; exact hrow.symm
    | ⟨1, _⟩ => show win3_1.index t (1 : Fin 2) * 64 + 1 * k.val = k.val; omega
  · show V c main_v8 (((cfg3.win 2).blk t).view.emb (ix2 p (0 : Fin 1))) = V c main_v8 (ix2 _ (0 : Fin 1))
    refine congrArg (V c main_v8) (funext fun a => Fin.ext ?_)
    match a with
    | ⟨0, _⟩ => show win3_2.index t (0 : Fin 2) * 5000 + 1 * p.val = _; rw [e4]; exact hrow.symm
    | ⟨1, _⟩ => show win3_2.index t (1 : Fin 2) * 1 + 1 * 0 = 0; omega
  · show V c main_arg10 (((cfg3.win 3).blk t).view.emb (ix2 k q)) = V c main_arg10 (ix2 k _)
    refine congrArg (V c main_arg10) (funext fun a => Fin.ext ?_)
    match a with
    | ⟨0, _⟩ => show win3_3.index t (0 : Fin 2) * 64 + 1 * k.val = k.val; omega
    | ⟨1, _⟩ => show win3_3.index t (1 : Fin 2) * 64 + 1 * q.val = _; rw [hcol]; omega
  · show V c main_v55 (((cfg3.win 4).blk t).view.emb (ix2 (0 : Fin 1) q)) = V c main_v55 (ix2 (0 : Fin 1) _)
    refine congrArg (V c main_v55) (funext fun a => Fin.ext ?_)
    match a with
    | ⟨0, _⟩ => show win3_4.index t (0 : Fin 2) * 1 + 1 * 0 = 0; omega
    | ⟨1, _⟩ => show win3_4.index t (1 : Fin 2) * 64 + 1 * q.val = _; rw [hcol]; omega

/-- An index of the array is in point `t`'s block iff each coordinate is in the block's range on its axis. -/
theorem mem_blk (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v56).slice (win3_5.rect t)).set ↔ _
  rw [View.set_slice_whole, Rect.mem_set_unit]
  exact Iff.rfl

/-- Row `r` lies in the block of the point whose row block is `r / 5000`: the twenty blocks tile the array. -/
theorem cover (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The output array after the launch: the layer's reciprocal form of the five arrays the launch found. -/
theorem final (c : Dev nD) : (dat3 (F := Ideal) V c).arrAt 5 cfg3.N = whole V c :=
  (dat3 (F := Ideal) V c).arrAt_eq_of_cover 5 (whole V c) (fun t _ => flushed_eq V c t) cover

end Cert.KernelIdeal.Layer3

end
-- ==== Proof.RefValue.lean ====
/-
  The reference program's layers in the quotient form, and its degree.

  Each of the reference's four layers is `max ((((n + h) / (deg + 1)) as a matrix) · W + b, 0)` with `n` the scatter-add of
  the gathered previous features: the generated stage-by-stage readings, chained, give exactly the quotient form of the
  specification.  The degree is a scatter-add of ones onto zeros, so every entry is `≥ 0` and `deg + 1` is never zero.
-/
import proofs.«112067_j24404004176133_2_alg».proof.Proof.Gen.ReferenceIdeal.Read
import proofs.«112067_j24404004176133_2_alg».proof.Proof.LayerSpec

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Sage

/-- Every entry of the degree is non-negative. -/
theorem deg_nonneg (x2 : (⟨S1600000, .i32⟩ : BufTy).Contents (Elt Ideal)) (j : S100000.Idx) :
    0 ≤ val_main_v3 (F := Ideal) x2 j := by
  unfold val_main_v3
  refine scatterAdd_nonneg _ _ _ _ (fun i => ?_) (fun i => ?_) j
  · rw [val_main_v1_apply, val_main_cst_0_apply]
    exact le_of_eq ofBits_zero.symm
  · rw [val_main_v0_apply, val_main_cst_apply]
    exact le_of_lt (lt_of_lt_of_eq zero_lt_one ofBits_one.symm)

/-- The degree plus one is never zero. -/
theorem deg_add_one_ne_zero (x2 : (⟨S1600000, .i32⟩ : BufTy).Contents (Elt Ideal)) (p : Fin 100000) :
    val_main_v3 (F := Ideal) x2 (ix1 p) + Ideal.ofBits .f32 0x3F800000#32 ≠ 0 := by
  rw [ofBits_one]
  exact add_one_ne_zero _ (deg_nonneg x2 _)

/-- Layer 0 of the reference is the quotient form of its neighbour sums, its input features, the degree, the weight and the
    bias: the stages read one operation at a time, their index functions identified with the coordinates `(p, k)`, `(k, q)`. -/
theorem layer0 (x0 : (⟨S100000x6, .f32⟩ : BufTy).Contents (Elt Ideal)) (x1 x2 : (⟨S1600000, .i32⟩ : BufTy).Contents (Elt Ideal)) (x4 : (⟨S6x16, .f32⟩ : BufTy).Contents (Elt Ideal)) (x5 : (⟨S16, .f32⟩ : BufTy).Contents (Elt Ideal)) :
    val_main_v24 (F := Ideal) x0 x1 x2 x4 x5
      = layerDiv (R := 100000) (d := 6) (e := 16) (val_main_v13 (F := Ideal) x0 x1 x2) x0 (val_main_v3 (F := Ideal) x2)
          (Ideal.ofBits .f32 0x3F800000#32) x4 x5 (Ideal.ofBits .f32 0x00000000#32) := by
  funext i
  have hl : ∀ k : Fin 6, lidx_main_v20 i k = ix2 (⟨(i 0).val, (i 0).isLt⟩ : Fin 100000) k :=
    fun k => funext fun a => Fin.ext (by match a with | ⟨0, _⟩ => rfl | ⟨1, _⟩ => rfl)
  have hr : ∀ k : Fin 6, ridx_main_v20 i k = ix2 k (⟨(i 1).val, (i 1).isLt⟩ : Fin 16) :=
    fun k => funext fun a => Fin.ext (by match a with | ⟨0, _⟩ => rfl | ⟨1, _⟩ => rfl)
  have hb : idx_main_v21 (idx_main_v22 i) = ix1 (⟨(i 1).val, (i 1).isLt⟩ : Fin 16) :=
    funext fun a => Fin.ext (by match a with | ⟨0, _⟩ => rfl)
  have hd : ∀ k : Fin 6, idx_main_v15 (idx_main_v18 (ix2 (⟨(i 0).val, (i 0).isLt⟩ : Fin 100000) k))
      = ix1 (⟨(i 0).val, (i 0).isLt⟩ : Fin 100000) :=
    fun k => funext fun a => Fin.ext (by match a with | ⟨0, _⟩ => rfl)
  rw [val_main_v24_apply, val_main_v23_apply, val_main_v20_apply, val_main_v22_apply, val_main_v21_apply,
    val_main_call0_v0_apply, val_main_call0_cst_apply, hb]
  unfold layerDiv entryDiv
  simp only [Ideal.maximumf_def, Ideal.addf_def, Ideal.ofBits_def]
  refine congrArg (fun s => max (s + x5 (ix1 (⟨(i 1).val, (i 1).isLt⟩ : Fin 16))) (Ideal.ofBits .f32 0x00000000#32))
    (Finset.sum_congr rfl fun k _ => ?_)
  rw [hl k, hr k, val_main_v19_apply, val_main_v14_apply, val_main_v18_apply, val_main_v17_apply,
    val_main_v15_apply, val_main_v16_apply, val_main_cst_3_apply, hd k]
  simp only [Ideal.hostDivf_def, Ideal.addf_def, Ideal.ofBits_def]

/-- Layer 1 of the reference is the quotient form of its neighbour sums, its input features, the degree, the weight and the
    bias: the stages read one operation at a time, their index functions identified with the coordinates `(p, k)`, `(k, q)`. -/
theorem layer1 (x0 : (⟨S100000x6, .f32⟩ : BufTy).Contents (Elt Ideal)) (x1 x2 : (⟨S1600000, .i32⟩ : BufTy).Contents (Elt Ideal)) (x4 : (⟨S6x16, .f32⟩ : BufTy).Contents (Elt Ideal)) (x5 : (⟨S16, .f32⟩ : BufTy).Contents (Elt Ideal)) (x6 : (⟨S16x32, .f32⟩ : BufTy).Contents (Elt Ideal)) (x7 : (⟨S32, .f32⟩ : BufTy).Contents (Elt Ideal)) :
    val_main_v45 (F := Ideal) x0 x1 x2 x4 x5 x6 x7
      = layerDiv (R := 100000) (d := 16) (e := 32) (val_main_v34 (F := Ideal) x0 x1 x2 x4 x5) (val_main_v24 (F := Ideal) x0 x1 x2 x4 x5) (val_main_v3 (F := Ideal) x2)
          (Ideal.ofBits .f32 0x3F800000#32) x6 x7 (Ideal.ofBits .f32 0x00000000#32) := by
  funext i
  have hl : ∀ k : Fin 16, lidx_main_v41 i k = ix2 (⟨(i 0).val, (i 0).isLt⟩ : Fin 100000) k :=
    fun k => funext fun a => Fin.ext (by match a with | ⟨0, _⟩ => rfl | ⟨1, _⟩ => rfl)
  have hr : ∀ k : Fin 16, ridx_main_v41 i k = ix2 k (⟨(i 1).val, (i 1).isLt⟩ : Fin 32) :=
    fun k => funext fun a => Fin.ext (by match a with | ⟨0, _⟩ => rfl | ⟨1, _⟩ => rfl)
  have hb : idx_main_v42 (idx_main_v43 i) = ix1 (⟨(i 1).val, (i 1).isLt⟩ : Fin 32) :=
    funext fun a => Fin.ext (by match a with | ⟨0, _⟩ => rfl)
  have hd : ∀ k : Fin 16, idx_main_v36 (idx_main_v39 (ix2 (⟨(i 0).val, (i 0).isLt⟩ : Fin 100000) k))
      = ix1 (⟨(i 0).val, (i 0).isLt⟩ : Fin 100000) :=
    fun k => funext fun a => Fin.ext (by match a with | ⟨0, _⟩ => rfl)
  rw [val_main_v45_apply, val_main_v44_apply, val_main_v41_apply, val_main_v43_apply, val_main_v42_apply,
    val_main_call1_v0_apply, val_main_call1_cst_apply, hb]
  unfold layerDiv entryDiv
  simp only [Ideal.maximumf_def, Ideal.addf_def, Ideal.ofBits_def]
  refine congrArg (fun s => max (s + x7 (ix1 (⟨(i 1).val, (i 1).isLt⟩ : Fin 32))) (Ideal.ofBits .f32 0x00000000#32))
    (Finset.sum_congr rfl fun k _ => ?_)
  rw [hl k, hr k, val_main_v40_apply, val_main_v35_apply, val_main_v39_apply, val_main_v38_apply,
    val_main_v36_apply, val_main_v37_apply, val_main_cst_7_apply, hd k]
  simp only [Ideal.hostDivf_def, Ideal.addf_def, Ideal.ofBits_def]

/-- Layer 2 of the reference is the quotient form of its neighbour sums, its input features, the degree, the weight and the
    bias: the stages read one operation at a time, their index functions identified with the coordinates `(p, k)`, `(k, q)`. -/
theorem layer2 (x0 : (⟨S100000x6, .f32⟩ : BufTy).Contents (Elt Ideal)) (x1 x2 : (⟨S1600000, .i32⟩ : BufTy).Contents (Elt Ideal)) (x4 : (⟨S6x16, .f32⟩ : BufTy).Contents (Elt Ideal)) (x5 : (⟨S16, .f32⟩ : BufTy).Contents (Elt Ideal)) (x6 : (⟨S16x32, .f32⟩ : BufTy).Contents (Elt Ideal)) (x7 : (⟨S32, .f32⟩ : BufTy).Contents (Elt Ideal)) (x8 : (⟨S32x64, .f32⟩ : BufTy).Contents (Elt Ideal)) (x9 : (⟨S64, .f32⟩ : BufTy).Contents (Elt Ideal)) :
    val_main_v66 (F := Ideal) x0 x1 x2 x4 x5 x6 x7 x8 x9
      = layerDiv (R := 100000) (d := 32) (e := 64) (val_main_v55 (F := Ideal) x0 x1 x2 x4 x5 x6 x7) (val_main_v45 (F := Ideal) x0 x1 x2 x4 x5 x6 x7) (val_main_v3 (F := Ideal) x2)
          (Ideal.ofBits .f32 0x3F800000#32) x8 x9 (Ideal.ofBits .f32 0x00000000#32) := by
  funext i
  have hl : ∀ k : Fin 32, lidx_main_v62 i k = ix2 (⟨(i 0).val, (i 0).isLt⟩ : Fin 100000) k :=
    fun k => funext fun a => Fin.ext (by match a with | ⟨0, _⟩ => rfl | ⟨1, _⟩ => rfl)
  have hr : ∀ k : Fin 32, ridx_main_v62 i k = ix2 k (⟨(i 1).val, (i 1).isLt⟩ : Fin 64) :=
    fun k => funext fun a => Fin.ext (by match a with | ⟨0, _⟩ => rfl | ⟨1, _⟩ => rfl)
  have hb : idx_main_v63 (idx_main_v64 i) = ix1 (⟨(i 1).val, (i 1).isLt⟩ : Fin 64) :=
    funext fun a => Fin.ext (by match a with | ⟨0, _⟩ => rfl)
  have hd : ∀ k : Fin 32, idx_main_v57 (idx_main_v60 (ix2 (⟨(i 0).val, (i 0).isLt⟩ : Fin 100000) k))
      = ix1 (⟨(i 0).val, (i 0).isLt⟩ : Fin 100000) :=
    fun k => funext fun a => Fin.ext (by match a with | ⟨0, _⟩ => rfl)
  rw [val_main_v66_apply, val_main_v65_apply, val_main_v62_apply, val_main_v64_apply, val_main_v63_apply,
    val_main_call2_v0_apply, val_main_call2_cst_apply, hb]
  unfold layerDiv entryDiv
  simp only [Ideal.maximumf_def, Ideal.addf_def, Ideal.ofBits_def]
  refine congrArg (fun s => max (s + x9 (ix1 (⟨(i 1).val, (i 1).isLt⟩ : Fin 64))) (Ideal.ofBits .f32 0x00000000#32))
    (Finset.sum_congr rfl fun k _ => ?_)
  rw [hl k, hr k, val_main_v61_apply, val_main_v56_apply, val_main_v60_apply, val_main_v59_apply,
    val_main_v57_apply, val_main_v58_apply, val_main_cst_11_apply, hd k]
  simp only [Ideal.hostDivf_def, Ideal.addf_def, Ideal.ofBits_def]

/-- Layer 3 of the reference is the quotient form of its neighbour sums, its input features, the degree, the weight and the
    bias: the stages read one operation at a time, their index functions identified with the coordinates `(p, k)`, `(k, q)`. -/
theorem layer3 (x0 : (⟨S100000x6, .f32⟩ : BufTy).Contents (Elt Ideal)) (x1 x2 : (⟨S1600000, .i32⟩ : BufTy).Contents (Elt Ideal)) (x4 : (⟨S6x16, .f32⟩ : BufTy).Contents (Elt Ideal)) (x5 : (⟨S16, .f32⟩ : BufTy).Contents (Elt Ideal)) (x6 : (⟨S16x32, .f32⟩ : BufTy).Contents (Elt Ideal)) (x7 : (⟨S32, .f32⟩ : BufTy).Contents (Elt Ideal)) (x8 : (⟨S32x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    val_main_v87 (F := Ideal) x0 x1 x2 x4 x5 x6 x7 x8 x9 x10 x11
      = layerDiv (R := 100000) (d := 64) (e := 64) (val_main_v76 (F := Ideal) x0 x1 x2 x4 x5 x6 x7 x8 x9) (val_main_v66 (F := Ideal) x0 x1 x2 x4 x5 x6 x7 x8 x9) (val_main_v3 (F := Ideal) x2)
          (Ideal.ofBits .f32 0x3F800000#32) x10 x11 (Ideal.ofBits .f32 0x00000000#32) := by
  funext i
  have hl : ∀ k : Fin 64, lidx_main_v83 i k = ix2 (⟨(i 0).val, (i 0).isLt⟩ : Fin 100000) k :=
    fun k => funext fun a => Fin.ext (by match a with | ⟨0, _⟩ => rfl | ⟨1, _⟩ => rfl)
  have hr : ∀ k : Fin 64, ridx_main_v83 i k = ix2 k (⟨(i 1).val, (i 1).isLt⟩ : Fin 64) :=
    fun k => funext fun a => Fin.ext (by match a with | ⟨0, _⟩ => rfl | ⟨1, _⟩ => rfl)
  have hb : idx_main_v84 (idx_main_v85 i) = ix1 (⟨(i 1).val, (i 1).isLt⟩ : Fin 64) :=
    funext fun a => Fin.ext (by match a with | ⟨0, _⟩ => rfl)
  have hd : ∀ k : Fin 64, idx_main_v78 (idx_main_v81 (ix2 (⟨(i 0).val, (i 0).isLt⟩ : Fin 100000) k))
      = ix1 (⟨(i 0).val, (i 0).isLt⟩ : Fin 100000) :=
    fun k => funext fun a => Fin.ext (by match a with | ⟨0, _⟩ => rfl)
  rw [val_main_v87_apply, val_main_v86_apply, val_main_v83_apply, val_main_v85_apply, val_main_v84_apply,
    val_main_call3_v0_apply, val_main_call3_cst_apply, hb]
  unfold layerDiv entryDiv
  simp only [Ideal.maximumf_def, Ideal.addf_def, Ideal.ofBits_def]
  refine congrArg (fun s => max (s + x11 (ix1 (⟨(i 1).val, (i 1).isLt⟩ : Fin 64))) (Ideal.ofBits .f32 0x00000000#32))
    (Finset.sum_congr rfl fun k _ => ?_)
  rw [hl k, hr k, val_main_v82_apply, val_main_v77_apply, val_main_v81_apply, val_main_v80_apply,
    val_main_v78_apply, val_main_v79_apply, val_main_cst_15_apply, hd k]
  simp only [Ideal.hostDivf_def, Ideal.addf_def, Ideal.ofBits_def]

end Cert.ReferenceIdeal.RefValue

end
-- ==== Proof.LibHostRead.lean ====
/-
  Two pointwise readings of host operations at the ideal values, stated at any shape and any constant word.

  A scalar constant broadcast to any shape reads that constant at every index, whatever the index map; the host's
  quotient of two arrays reads the quotient of their entries.
-/
import Idealize.ShloMosaic.PureOps.Ideal
import Idealize.ShloMosaic.Lib.ValueIdx

noncomputable section

namespace Cert.HostRead

open Idealize.ShloMosaic

/-- A splat constant, broadcast, reads the extended real its word denotes. -/
theorem broadcast_constant_apply {s t : Shape} (dims : Fin s.rank → Fin t.rank) (h : s.BroadcastsInDim t dims)
    (w : BitVec FTy.f32.bits) (j : t.Idx) :
    broadcastInDim t dims h (constant (F := Ideal) s .f32 w) j = Ideal.ofBits .f32 w := rfl

/-- The host's quotient at an index is the quotient of the entries. -/
theorem hostDivf_apply {s : Shape} {φ : FTy} (a b : FVec Ideal s φ) (i : s.Idx) :
    Host.divf a b i = Ideal.div (a i) (b i) := rfl

end Cert.HostRead

end
-- ==== Proof.Bridge.lean ====
/-
  The two programs' layers are one function of the arguments.

  The kernel's stored reciprocal degree, read at node `p`, is `1 / (deg p + 1)` with `deg` the very scatter-add of ones the
  reference divides by; its one-row bias read at `q` is the bias at `q`; the gather and scatter-add around each launch
  are the same host operations the reference applies.  So each launch's reciprocal form of what it finds is the
  reference's quotient form of the same arrays (`a · (1 / D) = a / D` for `D = deg p + 1 ≠ 0`), layer after layer.
-/
import proofs.«112067_j24404004176133_2_alg».proof.Proof.Fold
import proofs.«112067_j24404004176133_2_alg».proof.Proof.RefValue
import proofs.«112067_j24404004176133_2_alg».proof.Proof.LibBroadcast
import proofs.«112067_j24404004176133_2_alg».proof.Proof.LibHostRead

set_option maxRecDepth 16384

noncomputable section

namespace Cert.Bridge

open Idealize.ShloMosaic Idealize.ShloMosaic.TcCoe Idealize.ShloMosaic.ValueIdx Cert.Sage
open Cert.KernelIdeal.Fold Cert.ReferenceIdeal.Read Cert.ReferenceIdeal.RefValue

/-- The degree the kernel's first stretch computes is the reference's. -/
theorem deg_eq (x2 : (⟨Cert.ReferenceIdeal.S1600000, .i32⟩ : BufTy).Contents (Elt Ideal)) :
    (Host.scatterAdd (F := Ideal) Cert.KernelIdeal.scatter_S100000_S1600000x1_S1600000_n_0_0_1
        (broadcastInDim Cert.KernelIdeal.S100000 ![] Cert.KernelIdeal.Gen.bcast_S_S100000 (constant Cert.KernelIdeal.S_ .f32 0x00000000#32))
        (broadcastInDim Cert.KernelIdeal.S1600000x1 ![0] Cert.KernelIdeal.Gen.bcast_S1600000_S1600000x1_0 x2)
        (broadcastInDim Cert.KernelIdeal.S1600000 ![] Cert.KernelIdeal.Gen.bcast_S_S1600000 (constant Cert.KernelIdeal.S_ .f32 0x3F800000#32)) : (⟨Cert.ReferenceIdeal.S100000, .f32⟩ : BufTy).Contents (Elt Ideal))
      = val_main_v3 (F := Ideal) x2 := rfl

/-- The stored reciprocal at node `p`: one over (the degree at `p` plus one). -/
theorem invDeg_apply (x2 : (⟨Cert.ReferenceIdeal.S1600000, .i32⟩ : BufTy).Contents (Elt Ideal)) (p : Fin 100000) :
    invDeg (F := Ideal) x2 (ix2 p (0 : Fin 1))
      = Ideal.div (Ideal.ofBits .f32 0x3F800000#32) (val_main_v3 (F := Ideal) x2 (ix1 p) + Ideal.ofBits .f32 0x3F800000#32) := by
  unfold invDeg
  rw [Cert.Layout.shapeCast_col_apply, deg_eq, Cert.HostRead.hostDivf_apply, addf_apply,
    Cert.HostRead.broadcast_constant_apply]

/-- Layer 0's one-row bias at `q` is the bias at `q`. -/
theorem row0_apply (b : (⟨Cert.ReferenceIdeal.S16, .f32⟩ : BufTy).Contents (Elt Ideal)) (q : Fin 16) :
    row0 (F := Ideal) b (ix2 (0 : Fin 1) q) = b (ix1 q) := by
  unfold row0
  exact Cert.Layout.shapeCast_row_apply _ _ q

/-- Layer 1's one-row bias at `q` is the bias at `q`. -/
theorem row1_apply (b : (⟨Cert.ReferenceIdeal.S32, .f32⟩ : BufTy).Contents (Elt Ideal)) (q : Fin 32) :
    row1 (F := Ideal) b (ix2 (0 : Fin 1) q) = b (ix1 q) := by
  unfold row1
  exact Cert.Layout.shapeCast_row_apply _ _ q

/-- Layer 2's one-row bias at `q` is the bias at `q`. -/
theorem row2_apply (b : (⟨Cert.ReferenceIdeal.S64, .f32⟩ : BufTy).Contents (Elt Ideal)) (q : Fin 64) :
    row2 (F := Ideal) b (ix2 (0 : Fin 1) q) = b (ix1 q) := by
  unfold row2
  exact Cert.Layout.shapeCast_row_apply _ _ q

/-- Layer 3's one-row bias at `q` is the bias at `q`. -/
theorem row3_apply (b : (⟨Cert.ReferenceIdeal.S64, .f32⟩ : BufTy).Contents (Elt Ideal)) (q : Fin 64) :
    row3 (F := Ideal) b (ix2 (0 : Fin 1) q) = b (ix1 q) := by
  unfold row3
  exact Cert.Layout.shapeCast_row_apply _ _ q

/-- The gather and scatter-add before launch 0 are the reference's, of the same features. -/
theorem neigh0_eq (x0 : (⟨Cert.ReferenceIdeal.S100000x6, .f32⟩ : BufTy).Contents (Elt Ideal)) (x1 x2 : (⟨Cert.ReferenceIdeal.S1600000, .i32⟩ : BufTy).Contents (Elt Ideal)) :
    neigh0 (F := Ideal) x0 x1 x2 = val_main_v13 (F := Ideal) x0 x1 x2 := rfl

/-- The gather and scatter-add before launch 1 are the reference's, of the same features. -/
theorem neigh1_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) :
    neigh1 (F := Ideal) (val_main_v24 (F := Ideal) x0 x1 x2 x4 x5) x1 x2 = val_main_v34 (F := Ideal) x0 x1 x2 x4 x5 := rfl

/-- The gather and scatter-add before launch 2 are the reference's, of the same features. -/
theorem neigh2_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) (x6 : (⟨Cert.ReferenceIdeal.S16x32, .f32⟩ : BufTy).Contents (Elt Ideal)) (x7 : (⟨Cert.ReferenceIdeal.S32, .f32⟩ : BufTy).Contents (Elt Ideal)) :
    neigh2 (F := Ideal) (val_main_v45 (F := Ideal) x0 x1 x2 x4 x5 x6 x7) x1 x2 = val_main_v55 (F := Ideal) x0 x1 x2 x4 x5 x6 x7 := rfl

/-- The gather and scatter-add before launch 3 are the reference's, of the same features. -/
theorem neigh3_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) (x6 : (⟨Cert.ReferenceIdeal.S16x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) :
    neigh3 (F := Ideal) (val_main_v66 (F := Ideal) x0 x1 x2 x4 x5 x6 x7 x8 x9) x1 x2 = val_main_v76 (F := Ideal) x0 x1 x2 x4 x5 x6 x7 x8 x9 := rfl

/-- Launch 0's reciprocal form of what it finds is the reference's layer 0. -/
theorem layer0_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) :
    layerMul (R := 100000) (d := 6) (e := 16) (neigh0 (F := Ideal) x0 x1 x2) x0 (invDeg (F := Ideal) x2)
        x4 (row0 (F := Ideal) x5) (Ideal.ofBits .f32 0x00000000#32)
      = val_main_v24 (F := Ideal) x0 x1 x2 x4 x5 := by
  rw [layer0, neigh0_eq]
  funext i
  exact entryMul_eq_entryDiv _ _ _ _ _ _ _ _ _ _ _ ofBits_one (invDeg_apply x2 _) (deg_add_one_ne_zero x2 _) (row0_apply x5 _)

/-- Launch 1's reciprocal form of what it finds is the reference's layer 1. -/
theorem layer1_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) (x6 : (⟨Cert.ReferenceIdeal.S16x32, .f32⟩ : BufTy).Contents (Elt Ideal)) (x7 : (⟨Cert.ReferenceIdeal.S32, .f32⟩ : BufTy).Contents (Elt Ideal)) :
    layerMul (R := 100000) (d := 16) (e := 32) (neigh1 (F := Ideal) (val_main_v24 (F := Ideal) x0 x1 x2 x4 x5) x1 x2) (val_main_v24 (F := Ideal) x0 x1 x2 x4 x5) (invDeg (F := Ideal) x2)
        x6 (row1 (F := Ideal) x7) (Ideal.ofBits .f32 0x00000000#32)
      = val_main_v45 (F := Ideal) x0 x1 x2 x4 x5 x6 x7 := by
  rw [layer1, neigh1_eq]
  funext i
  exact entryMul_eq_entryDiv _ _ _ _ _ _ _ _ _ _ _ ofBits_one (invDeg_apply x2 _) (deg_add_one_ne_zero x2 _) (row1_apply x7 _)

/-- Launch 2's reciprocal form of what it finds is the reference's layer 2. -/
theorem layer2_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) (x6 : (⟨Cert.ReferenceIdeal.S16x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) :
    layerMul (R := 100000) (d := 32) (e := 64) (neigh2 (F := Ideal) (val_main_v45 (F := Ideal) x0 x1 x2 x4 x5 x6 x7) x1 x2) (val_main_v45 (F := Ideal) x0 x1 x2 x4 x5 x6 x7) (invDeg (F := Ideal) x2)
        x8 (row2 (F := Ideal) x9) (Ideal.ofBits .f32 0x00000000#32)
      = val_main_v66 (F := Ideal) x0 x1 x2 x4 x5 x6 x7 x8 x9 := by
  rw [layer2, neigh2_eq]
  funext i
  exact entryMul_eq_entryDiv _ _ _ _ _ _ _ _ _ _ _ ofBits_one (invDeg_apply x2 _) (deg_add_one_ne_zero x2 _) (row2_apply x9 _)

/-- Launch 3's reciprocal form of what it finds is the reference's layer 3. -/
theorem layer3_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) (x6 : (⟨Cert.ReferenceIdeal.S16x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) :
    layerMul (R := 100000) (d := 64) (e := 64) (neigh3 (F := Ideal) (val_main_v66 (F := Ideal) x0 x1 x2 x4 x5 x6 x7 x8 x9) x1 x2) (val_main_v66 (F := Ideal) x0 x1 x2 x4 x5 x6 x7 x8 x9) (invDeg (F := Ideal) x2)
        x10 (row3 (F := Ideal) x11) (Ideal.ofBits .f32 0x00000000#32)
      = val_main_v87 (F := Ideal) x0 x1 x2 x4 x5 x6 x7 x8 x9 x10 x11 := by
  rw [layer3, neigh3_eq]
  funext i
  exact entryMul_eq_entryDiv _ _ _ _ _ _ _ _ _ _ _ ofBits_one (invDeg_apply x2 _) (deg_add_one_ne_zero x2 _) (row3_apply x11 _)

/-- The final stretch is the reference's, of the same last-layer features. -/
theorem graphMean_eq (x0 : (⟨Cert.ReferenceIdeal.S100000x6, .f32⟩ : BufTy).Contents (Elt Ideal)) (x1 x2 : (⟨Cert.ReferenceIdeal.S1600000, .i32⟩ : BufTy).Contents (Elt Ideal)) (x4 : (⟨Cert.ReferenceIdeal.S6x16, .f32⟩ : BufTy).Contents (Elt Ideal)) (x5 : (⟨Cert.ReferenceIdeal.S16, .f32⟩ : BufTy).Contents (Elt Ideal)) (x6 : (⟨Cert.ReferenceIdeal.S16x32, .f32⟩ : BufTy).Contents (Elt Ideal)) (x7 : (⟨Cert.ReferenceIdeal.S32, .f32⟩ : BufTy).Contents (Elt Ideal)) (x8 : (⟨Cert.ReferenceIdeal.S32x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) (x3 : (⟨Cert.ReferenceIdeal.S100000, .i32⟩ : BufTy).Contents (Elt Ideal)) :
    graphMean (F := Ideal) (val_main_v87 (F := Ideal) x0 x1 x2 x4 x5 x6 x7 x8 x9 x10 x11) x3
      = val_main_v99 (F := Ideal) x0 x1 x2 x3 x4 x5 x6 x7 x8 x9 x10 x11 := rfl

end Cert.Bridge

end
-- ==== Proof.KernelValue.lean ====
/-
  The idealized kernel's result as the reference's function of the arguments.

  Launch by launch: the array a launch leaves is its reciprocal form of the five arrays it finds; those are the
  neighbour sums of the previous launch's output, that output, the reciprocal degree, the weight and the bias row; and
  that reciprocal form is the reference's layer.  By induction over the four launches the last output is the
  reference's last layer, and the final stretch — the per-graph mean — is applied to it by both programs.
-/
import proofs.«112067_j24404004176133_2_alg».proof.Proof.Boundary
import proofs.«112067_j24404004176133_2_alg».proof.Proof.Region0
import proofs.«112067_j24404004176133_2_alg».proof.Proof.Region1
import proofs.«112067_j24404004176133_2_alg».proof.Proof.Region2
import proofs.«112067_j24404004176133_2_alg».proof.Proof.Region3
import proofs.«112067_j24404004176133_2_alg».proof.Proof.Bridge

set_option maxRecDepth 16384

noncomputable section

namespace Cert.KernelIdeal.Gen

open Idealize.ShloMosaic Idealize.ShloMosaic.TcCoe Idealize.SL.Sem Cert.KernelIdeal.Fold Cert.Sage Cert.ReferenceIdeal.Read

variable (m : (ℓ : Loc nD τ sig) → Buf (Elt Ideal) ℓ) (ρ : Dev nD → PrngReg) (c : Dev nD)

/-- After launch 0 its output array holds the reference's layer-0 stage of the launched arguments. -/
theorem feat1 : W2 m ρ c (Proc.devRef .tc main_v20) = val_main_v24 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W2_arr m ρ c 5).trans ?_
  refine (Cert.KernelIdeal.Layer0.final (V1 m ρ) c).trans ?_
  show layerMul (R := 100000) (d := 6) (e := 16) (W1 m ρ c (Proc.devRef .tc main_v18)) (W1 m ρ c (Proc.devRef .tc main_arg0)) (W1 m ρ c (Proc.devRef .tc main_v8)) (W1 m ρ c (Proc.devRef .tc main_arg4)) (W1 m ρ c (Proc.devRef .tc main_v19)) (Ideal.ofBits .f32 0x00000000#32) = _
  rw [in0_neigh m ρ c, in0_feat m ρ c, inv1 m ρ c, in0_weight m ρ c, in0_bias m ρ c]
  exact Cert.Bridge.layer0_eq _ _ _ _ _

/-- After launch 1 its output array holds the reference's layer-1 stage of the launched arguments. -/
theorem feat2 : W4 m ρ c (Proc.devRef .tc main_v32) = val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Cert.KernelIdeal.Layer1.final (V3 m ρ) c).trans ?_
  show layerMul (R := 100000) (d := 16) (e := 32) (W3 m ρ c (Proc.devRef .tc main_v30)) (W3 m ρ c (Proc.devRef .tc main_v20)) (W3 m ρ c (Proc.devRef .tc main_v8)) (W3 m ρ c (Proc.devRef .tc main_arg6)) (W3 m ρ c (Proc.devRef .tc main_v31)) (Ideal.ofBits .f32 0x00000000#32) = _
  rw [in1_neigh m ρ c, in1_feat m ρ c, inv3 m ρ c, in1_weight m ρ c, in1_bias m ρ c, feat1 m ρ c]
  exact Cert.Bridge.layer1_eq _ _ _ _ _ _ _

/-- After launch 2 its output array holds the reference's layer-2 stage of the launched arguments. -/
theorem feat3 : W6 m ρ c (Proc.devRef .tc main_v44) = val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 5).trans ?_
  refine (Cert.KernelIdeal.Layer2.final (V5 m ρ) c).trans ?_
  show layerMul (R := 100000) (d := 32) (e := 64) (W5 m ρ c (Proc.devRef .tc main_v42)) (W5 m ρ c (Proc.devRef .tc main_v32)) (W5 m ρ c (Proc.devRef .tc main_v8)) (W5 m ρ c (Proc.devRef .tc main_arg8)) (W5 m ρ c (Proc.devRef .tc main_v43)) (Ideal.ofBits .f32 0x00000000#32) = _
  rw [in2_neigh m ρ c, in2_feat m ρ c, inv5 m ρ c, in2_weight m ρ c, in2_bias m ρ c, feat2 m ρ c]
  exact Cert.Bridge.layer2_eq _ _ _ _ _ _ _ _ _

/-- After launch 3 its output array holds the reference's layer-3 stage of the launched arguments. -/
theorem feat4 : W8 m ρ c (Proc.devRef .tc main_v56) = val_main_v87 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ?_
  refine (Cert.KernelIdeal.Layer3.final (V7 m ρ) c).trans ?_
  show layerMul (R := 100000) (d := 64) (e := 64) (W7 m ρ c (Proc.devRef .tc main_v54)) (W7 m ρ c (Proc.devRef .tc main_v44)) (W7 m ρ c (Proc.devRef .tc main_v8)) (W7 m ρ c (Proc.devRef .tc main_arg10)) (W7 m ρ c (Proc.devRef .tc main_v55)) (Ideal.ofBits .f32 0x00000000#32) = _
  rw [in3_neigh m ρ c, in3_feat m ρ c, inv7 m ρ c, in3_weight m ρ c, in3_bias m ρ c, feat3 m ρ c]
  exact Cert.Bridge.layer3_eq _ _ _ _ _ _ _ _ _ _ _

/-- The result buffer after the run: the reference's result term of the launched arguments. -/
theorem result_eq : W9 m ρ c (Proc.devRef .tc main_v68)
    = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [result_mean m ρ c, feat4 m ρ c]
  exact Cert.Bridge.graphMean_eq _ _ _ _ _ _ _ _ _ _ _ _

end Cert.KernelIdeal.Gen

end
-- ==== Proof.lean ====
/-
  A four-layer graph convolution with a per-graph mean, computed two ways, is one function of the inputs.

  Both programs compute, for node features `h₀ = feat` and layers `k = 0 … 3`,
      hₖ₊₁ = max (((nₖ + hₖ) scaled by the node's degree) · Wₖ + bₖ, 0),   nₖ(v) = Σ over edges u → v of hₖ(u),
  then the mean of `h₄` over each graph's nodes.  The gathers, the scatter-adds and the final mean are the same host
  operations in both.  They differ in the scaling: the kernel multiplies by a reciprocal `1 / (deg + 1)` computed once,
  the reference divides by `deg + 1` in every layer; and the kernel's layers run block by block, twenty blocks of 5000
  nodes, inside four launches.

  On the extended reals `a · (1 / D) = a / D` whenever `D ≠ 0` (both are `a · D⁻¹`, infinite `D` included), and
  `D = deg + 1 ≥ 1` because a degree is a sum of ones onto zero.  A matrix product into a zero accumulator and the
  host's product are the same sum; a change of float format is the identity.  Entry `(p, q)` of a block depends only on
  row `p` of the row-blocked operands, so the blocks are restrictions of one whole-array function and tile the array.
  Hence after each launch the output array is the reference's layer of the same arguments, and the results agree.
  No precondition is used: the law needs no finiteness, only `deg + 1 ≠ 0`, which always holds.

  The three frames are the generated ones (the reference's is its generated run with the result dropped); the
  idealization rewrote no operation, so the kernel-to-idealized-kernel claim is trivial.
-/
import proofs.«112067_j24404004176133_2_alg».proof.Defs
import proofs.«112067_j24404004176133_2_alg».proof.Proof.Gen.Kernel
import proofs.«112067_j24404004176133_2_alg».proof.Proof.Gen.Kernel.Skeleton
import proofs.«112067_j24404004176133_2_alg».proof.Proof.Gen.Kernel.Launch
import proofs.«112067_j24404004176133_2_alg».proof.Proof.Gen.Kernel.Points
import proofs.«112067_j24404004176133_2_alg».proof.Proof.Gen.Kernel.Frame
import proofs.«112067_j24404004176133_2_alg».proof.Proof.Gen.KernelIdeal
import proofs.«112067_j24404004176133_2_alg».proof.Proof.Gen.KernelIdeal.Skeleton
import proofs.«112067_j24404004176133_2_alg».proof.Proof.Gen.KernelIdeal.Launch
import proofs.«112067_j24404004176133_2_alg».proof.Proof.Gen.KernelIdeal.Points
import proofs.«112067_j24404004176133_2_alg».proof.Proof.Gen.KernelIdeal.Frame
import proofs.«112067_j24404004176133_2_alg».proof.Proof.Gen.ReferenceIdeal
import proofs.«112067_j24404004176133_2_alg».proof.Proof.Gen.ReferenceIdeal.Run
import proofs.«112067_j24404004176133_2_alg».proof.Proof.Gen.ReferenceIdeal.Read
import proofs.«112067_j24404004176133_2_alg».proof.Proof.Gen.Pre_finite_inputs
import proofs.«112067_j24404004176133_2_alg».proof.Proof.KernelRun
import proofs.«112067_j24404004176133_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run, and end with equal results: the kernel's result buffer holds the fold's last contents,
    which is the reference's result term of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v68),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  exact (Cert.KernelIdeal.Gen.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
